-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.truncf_extf.Statement Cert.KernelIdeal.S1024x256 .f32 .bf16
  ∧ IdealRules.truncf_extf.Statement Cert.KernelIdeal.S1024x256 .f32 .bf16
  ∧ IdealRules.truncf_extf.Statement Cert.KernelIdeal.S1024x256 .f32 .bf16
  ∧ IdealRules.truncf_extf.Statement Cert.KernelIdeal.S1024x256 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x256 : Shape := ⟨2, ![65536, 256]⟩
abbrev S1024x1x256 : Shape := ⟨3, ![1024, 1, 256]⟩
abbrev S1024x256 : Shape := ⟨2, ![1024, 256]⟩
abbrev S_ : Shape := ⟨0, ![]⟩

class Facts : Prop where
  bcast_S_S65536x256 : S_.BroadcastsInDim S65536x256 (![] : Fin 0 → Fin S65536x256.rank)
  reducesTo_S65536x256_S_d0_1 : S65536x256.ReducesTo [0, 1] S_
  h_S_ : 0 < S_.numel
  bcast_S_S1024x1x256 : S_.BroadcastsInDim S1024x1x256 (![] : Fin 0 → Fin S1024x1x256.rank)
  reducesTo_S1024x1x256_S_d0_1_2 : S1024x1x256.ReducesTo [0, 1, 2] S_
  bcast_S_S1024x256 : S_.BroadcastsInDim S1024x256 (![] : Fin 0 → Fin S1024x256.rank)
  reducesTo_S1024x256_S_d0_1 : S1024x256.ReducesTo [0, 1] S_

variable [Facts]

def fn_part1 {F : FTy → Type} [FloatOps F] (main_v13 : IVec S_ 1) (main_v15 : IVec S1024x256 1) (main_c_5 : IVec S_ 1) : IVec S_ 1 :=
  let main_v16 : IVec S_ 1 := (fun x v => Host.reduce IntOp.andi x v reducesTo_S1024x256_S_d0_1 h_S_) main_v15 main_c_5
  let main_v17 : IVec S_ 1 := andi main_v13 main_v16
  main_v17

def fn {F : FTy → Type} [FloatOps F] (main_arg0 : FVec F S65536x256 .f32) (main_arg1 : FVec F S1024x1x256 .f32) (main_arg2 : FVec F S1024x256 .f32) : IVec S_ 1 :=
  let main_v0 : FVec F S65536x256 .f32 := Host.absf main_arg0
  let main_cst : FVec F S_ .f32 := constant S_ .f32 0x7F800000#32
  let main_v1 : FVec F S65536x256 .f32 := broadcastInDim S65536x256 ![] bcast_S_S65536x256 main_cst
  let main_v2 : IVec S65536x256 1 := cmpf .olt main_v0 main_v1
  let main_c : IVec S_ 1 := constantI S_ 1 1#1
  let main_v3 : IVec S_ 1 := (fun x v => Host.reduce IntOp.andi x v reducesTo_S65536x256_S_d0_1 h_S_) main_v2 main_c
  let main_v4 : FVec F S1024x1x256 .f32 := Host.absf main_arg1
  let main_cst_0 : FVec F S_ .f32 := constant S_ .f32 0x7F800000#32
  let main_v5 : FVec F S1024x1x256 .f32 := broadcastInDim S1024x1x256 ![] bcast_S_S1024x1x256 main_cst_0
  let main_v6 : IVec S1024x1x256 1 := cmpf .olt main_v4 main_v5
  let main_c_1 : IVec S_ 1 := constantI S_ 1 1#1
  let main_v7 : IVec S_ 1 := (fun x v => Host.reduce IntOp.andi x v reducesTo_S1024x1x256_S_d0_1_2 h_S_) main_v6 main_c_1
  let main_v8 : IVec S_ 1 := andi main_v3 main_v7
  let main_v9 : FVec F S1024x256 .f32 := Host.absf main_arg2
  let main_cst_2 : FVec F S_ .f32 := constant S_ .f32 0x7F800000#32
  let main_v10 : FVec F S1024x256 .f32 := broadcastInDim S1024x256 ![] bcast_S_S1024x256 main_cst_2
  let main_v11 : IVec S1024x256 1 := cmpf .olt main_v9 main_v10
  let main_c_3 : IVec S_ 1 := constantI S_ 1 1#1
  let main_v12 : IVec S_ 1 := (fun x v => Host.reduce IntOp.andi x v reducesTo_S1024x256_S_d0_1 h_S_) main_v11 main_c_3
  let main_v13 : IVec S_ 1 := andi main_v8 main_v12
  let main_cst_4 : FVec F S_ .f32 := constant S_ .f32 0x00000000#32
  let main_v14 : FVec F S1024x256 .f32 := broadcastInDim S1024x256 ![] bcast_S_S1024x256 main_cst_4
  let main_v15 : IVec S1024x256 1 := cmpf .une main_arg2 main_v14
  let main_c_5 : IVec S_ 1 := constantI S_ 1 1#1
  fn_part1 (F := F) main_v13 main_v15 main_c_5
-- ==== Kernel.lean ====
abbrev S65536x256 : Shape := ⟨2, ![65536, 256]⟩
abbrev S1024x1x256 : Shape := ⟨3, ![1024, 1, 256]⟩
abbrev S1024x256 : Shape := ⟨2, ![1024, 256]⟩
abbrev S_ : Shape := ⟨0, ![]⟩
abbrev S1024 : Shape := ⟨1, ![1024]⟩
abbrev S256x1024 : Shape := ⟨2, ![256, 1024]⟩
abbrev S1x1024 : Shape := ⟨2, ![1, 1024]⟩
abbrev S65536x1024 : Shape := ⟨2, ![65536, 1024]⟩
abbrev S2048x256 : Shape := ⟨2, ![2048, 256]⟩
abbrev S2048x1024 : Shape := ⟨2, ![2048, 1024]⟩
abbrev S1024x1024 : Shape := ⟨2, ![1024, 1024]⟩

abbrev nBuf : Space → Nat
  | .hbm => 21
  | .vmem => 7
  | .smem => 0
  | _ => 0

abbrev bufTy : (tb : Table) → Fin (tcTables nBuf tb) → BufTy
  | .hbm, ⟨0, _⟩ => ⟨S65536x256, .f32⟩
  | .hbm, ⟨1, _⟩ => ⟨S1024x1x256, .f32⟩
  | .hbm, ⟨2, _⟩ => ⟨S1024x256, .f32⟩
  | .hbm, ⟨3, _⟩ => ⟨S1024x256, .f32⟩
  | .hbm, ⟨4, _⟩ => ⟨S_, .f32⟩
  | .hbm, ⟨5, _⟩ => ⟨S1024x256, .f32⟩
  | .hbm, ⟨6, _⟩ => ⟨S1024x256, .f32⟩
  | .hbm, ⟨7, _⟩ => ⟨S_, .f32⟩
  | .hbm, ⟨8, _⟩ => ⟨S1024x256, .f32⟩
  | .hbm, ⟨9, _⟩ => ⟨S1024x256, .f32⟩
  | .hbm, ⟨10, _⟩ => ⟨S1024x256, .f32⟩
  | .hbm, ⟨11, _⟩ => ⟨S1024x256, .f32⟩
  | .hbm, ⟨12, _⟩ => ⟨S1024x256, .f32⟩
  | .hbm, ⟨13, _⟩ => ⟨S_, .f32⟩
  | .hbm, ⟨14, _⟩ => ⟨S1024, .f32⟩
  | .hbm, ⟨15, _⟩ => ⟨S256x1024, .f32⟩
  | .hbm, ⟨16, _⟩ => ⟨S256x1024, .bf16⟩
  | .hbm, ⟨17, _⟩ => ⟨S256x1024, .f32⟩
  | .hbm, ⟨18, _⟩ => ⟨S256x1024, .bf16⟩
  | .hbm, ⟨19, _⟩ => ⟨S1x1024, .f32⟩
  | .hbm, ⟨20, _⟩ => ⟨S65536x1024, .f32⟩
  | .local _ .vmem, ⟨0, _⟩ => ⟨S2048x256, .f32⟩
  | .local _ .vmem, ⟨1, _⟩ => ⟨S2048x256, .f32⟩
  | .local _ .vmem, ⟨2, _⟩ => ⟨S256x1024, .bf16⟩
  | .local _ .vmem, ⟨3, _⟩ => ⟨S256x1024, .bf16⟩
  | .local _ .vmem, ⟨4, _⟩ => ⟨S1x1024, .f32⟩
  | .local _ .vmem, ⟨5, _⟩ => ⟨S2048x1024, .f32⟩
  | .local _ .vmem, ⟨6, _⟩ => ⟨S2048x1024, .f32⟩
  | _, _ => ⟨S65536x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def k0_mult1 : BitVec 32 :=
  let c0_i32 : BitVec 32 := 0#32
  let c1024_i32 : BitVec 32 := 1024#32
  let v6 : BitVec 32 := Scalar.muli c0_i32 c1024_i32
  v6
def k0_off1 (c0_i32 : BitVec 32) : Fin 2 → Nat :=
  let c1024_i32 : BitVec 32 := 1024#32
  let v6 : BitVec 32 := Scalar.muli c0_i32 c1024_i32
  let v7 : BitVec 32 := v6
  let v8 : Index := Scalar.indexCast v7
  let c0_5 : Index := 0#32
  ![v8.toNat, 0]
def k0_off2 (c0_i32 : BitVec 32) : Fin 2 → Nat :=
  let c1024_i32 : BitVec 32 := 1024#32
  let v6 : BitVec 32 := Scalar.muli c0_i32 c1024_i32
  let v7 : BitVec 32 := v6
  let v31 : Index := Scalar.indexCast v7
  let c0_10 : Index := 0#32
  ![v31.toNat, 0]
def k0_mult2 : BitVec 32 :=
  let c1_i32 : BitVec 32 := 1#32
  let c1024_i32_11 : BitVec 32 := 1024#32
  let v33 : BitVec 32 := Scalar.muli c1_i32 c1024_i32_11
  v33
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S1024x1x256_S1024x256 : S1024x1x256.ShapeCasts S1024x256
  bcast_S_S1024x256 : S_.BroadcastsInDim S1024x256 (![] : Fin 0 → Fin S1024x256.rank)
  reducesTo_S1024x256_S1024_d1 : S1024x256.ReducesTo [1] S1024
  h_S_ : 0 < S_.numel
  transposes_S1024x256_S256x1024_1_0 : S1024x256.Transposes [1, 0] S256x1024
  bitsLt_bf16_f32 : FTy.bits .bf16 < FTy.bits .f32
  shapeCasts_S1024_S1x1024 : S1024.ShapeCasts S1x1024
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  h_S1024x256 : 0 < S1024x256.numel
  broadcasts_S1x1024_S1024x1024 : S1x1024.Broadcasts S1024x1024
  h_S1024x1024 : 0 < S1024x1024.numel
  dot_S1024x256_S256x1024_S1024x1024_1_0_0_1_n_n_wf : DotDims.WF S1024x256 S256x1024 S1024x1024 [1] [0] [0] [1] [] []
  hrank0 : 0 < grid0.rank
  k0_mult1_dvd : 1024 ∣ k0_mult1.toNat
  k0_off1_inb : ∀ (r : Fin 2), ∀ a, (k0_off1 (BitVec.ofNat 32 r.val)) a + S1024x256.size a ≤ S2048x256.size a
  k0_off2_inb : ∀ (r : Fin 2), ∀ a, (k0_off2 (BitVec.ofNat 32 r.val)) a + S1024x1024.size a ≤ S2048x1024.size a
  k0_mult2_dvd : 1024 ∣ k0_mult2.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S65536x256.size a
  hwx0_0 : ∀ i : grid0.Coords, EltTy.bits .f32 = 32 ∨ (Rect.block (s := S65536x256) S2048x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S256x1024.size a
  hwx0_1 : ∀ i : grid0.Coords, EltTy.bits .bf16 = 32 ∨ (Rect.block (s := S256x1024) S256x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S256x1024.size a
  hwx0_2 : ∀ i : grid0.Coords, EltTy.bits .bf16 = 32 ∨ (Rect.block (s := S256x1024) S256x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x1024.size a ≤ S65536x1024.size a
  hwx0_4 : ∀ i : grid0.Coords, EltTy.bits .f32 = 32 ∨ (Rect.block (s := S65536x1024) S2048x1024.size (cc0_transform_4 i) (hinb0_4 i)).WholeWords (EltTy.packing .f32)

variable [Facts₀]

def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S256x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S256x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S2048x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S65536x256 : Shape := ⟨2, ![65536, 256]⟩
abbrev S1024x1x256 : Shape := ⟨3, ![1024, 1, 256]⟩
abbrev S1024x256 : Shape := ⟨2, ![1024, 256]⟩
abbrev S_ : Shape := ⟨0, ![]⟩
abbrev S65536x1024 : Shape := ⟨2, ![65536, 1024]⟩
abbrev S1024 : Shape := ⟨1, ![1024]⟩
abbrev S1x1024 : Shape := ⟨2, ![1, 1024]⟩

abbrev nBuf : Space → Nat
  | .hbm => 26
  | .vmem => 0
  | .smem => 0
  | _ => 0

abbrev bufTy : (tb : Table) → Fin (tcTables nBuf tb) → BufTy
  | .hbm, ⟨0, _⟩ => ⟨S65536x256, .f32⟩
  | .hbm, ⟨1, _⟩ => ⟨S1024x1x256, .f32⟩
  | .hbm, ⟨2, _⟩ => ⟨S1024x256, .f32⟩
  | .hbm, ⟨3, _⟩ => ⟨S_, .f32⟩
  | .hbm, ⟨4, _⟩ => ⟨S1024x256, .f32⟩
  | .hbm, ⟨5, _⟩ => ⟨S1024x256, .f32⟩
  | .hbm, ⟨6, _⟩ => ⟨S1024x256, .f32⟩
  | .hbm, ⟨7, _⟩ => ⟨S65536x256, .f32⟩
  | .hbm, ⟨8, _⟩ => ⟨S65536x1024, .f32⟩
  | .hbm, ⟨9, _⟩ => ⟨S1024x256, .f32⟩
  | .hbm, ⟨10, _⟩ => ⟨S65536x1024, .f32⟩
  | .hbm, ⟨11, _⟩ => ⟨S1024x256, .f32⟩
  | .hbm, ⟨12, _⟩ => ⟨S1024x256, .f32⟩
  | .hbm, ⟨13, _⟩ => ⟨S_, .f32⟩
  | .hbm, ⟨14, _⟩ => ⟨S1024, .f32⟩
  | .hbm, ⟨15, _⟩ => ⟨S_, .f32⟩
  | .hbm, ⟨16, _⟩ => ⟨S65536x1024, .f32⟩
  | .hbm, ⟨17, _⟩ => ⟨S65536x1024, .f32⟩
  | .hbm, ⟨18, _⟩ => ⟨S65536x1024, .f32⟩
  | .hbm, ⟨19, _⟩ => ⟨S1x1024, .f32⟩
  | .hbm, ⟨20, _⟩ => ⟨S65536x1024, .f32⟩
  | .hbm, ⟨21, _⟩ => ⟨S65536x1024, .f32⟩
  | .hbm, ⟨22, _⟩ => ⟨S_, .f32⟩
  | .hbm, ⟨23, _⟩ => ⟨S65536x1024, .f32⟩
  | .hbm, ⟨24, _⟩ => ⟨S65536x1024, .f32⟩
  | .hbm, ⟨25, _⟩ => ⟨S65536x1024, .f32⟩
  | _, _ => ⟨S65536x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]

class Facts₀ : Prop where
  bcast_S_S1024x256 : S_.BroadcastsInDim S1024x256 (![] : Fin 0 → Fin S1024x256.rank)
  shapeCasts_S1024x1x256_S1024x256 : S1024x1x256.ShapeCasts S1024x256
  reducesTo_S1024x256_S1024_d1 : S1024x256.ReducesTo [1] S1024
  h_S_ : 0 < S_.numel
  bcast_S_S65536x1024 : S_.BroadcastsInDim S65536x1024 (![] : Fin 0 → Fin S65536x1024.rank)
  bcast_S1024_S1x1024_1 : S1024.BroadcastsInDim S1x1024 (![1] : Fin 1 → Fin S1x1024.rank)
  bcast_S1x1024_S65536x1024_0_1 : S1x1024.BroadcastsInDim S65536x1024 (![0, 1] : Fin 2 → Fin S65536x1024.rank)
  dot_S65536x256_S1024x256_S65536x1024_1_1_0_0_n_n_wf : DotDims.WF S65536x256 S1024x256 S65536x1024 [1] [1] [0] [0] [] []

variable [Facts₀]

def dot_S65536x256_S1024x256_S65536x1024_1_1_0_0_n_n : DotDims S65536x256 S1024x256 S65536x1024 where
  lhsContracting := [1]
  rhsContracting := [1]
  lhsNonContracting := [0]
  rhsNonContracting := [0]
  lhsBatch := []
  rhsBatch := []
  wf := dot_S65536x256_S1024x256_S65536x1024_1_1_0_0_n_n_wf

class Facts : Prop extends Facts₀ where

variable [Facts]
-- ==== Proof.GaussSpec.lean ====
/-
  A diagonal Gaussian affinity between N = 65536 points x[p, ·] and M = 1024 centres mu[j, ·] with
  variances cov[j, ·] over D = 256 features:

      out[p, j] = exp(-1/2 · quad[p, j]),   quad[p, j] = Σ_k (x[p,k] - mu[j,k])² / cov[j,k].

  Neither program forms the squared difference. Both expand it with the inverse variance ic = 1 / cov:

      the reference:   quad = (Σ_k x² · ic  -  2 · Σ_k x · (mu · ic))  +  (0 + Σ_k mu² · ic)
      the kernel:      quad = (((Σ_k x² · ic  +  Σ_k (x² - x²) · ic)  +  Σ_k x · ((-2 · mu) · ic))
                                +  Σ_k (x - x) · ((-2 · mu) · ic))  +  (0 + Σ_k mu² · ic)

  (the kernel splits each left operand into a rounded part and its remainder; with no rounding the
  remainder is x - x). This module states both arrangements index by index on the extended reals, over
  the literal shapes, with the float literals kept as the patterns the programs print.
-/
import Idealize.ShloMosaic.PureOps.Ideal
import Idealize.ShloMosaic.Lib.ValueIdx

noncomputable section

open scoped BigOperators

namespace Cert.Gauss

open Idealize.ShloMosaic Idealize.ShloMosaic.ValueIdx

/-- The points, [N, D]. -/
abbrev SX : Shape := ⟨2, ![65536, 256]⟩
/-- The centres, [M, 1, D]. -/
abbrev SMu : Shape := ⟨3, ![1024, 1, 256]⟩
/-- The variances, [M, D]. -/
abbrev SCov : Shape := ⟨2, ![1024, 256]⟩
/-- The affinities, [N, M]. -/
abbrev SOut : Shape := ⟨2, ![65536, 1024]⟩

/-- The float literals of the two programs, as the extended reals their patterns denote: 1, 2, -2, 0, -1/2. -/
abbrev one : EReal := Ideal.ofBits .f32 0x3F800000#32
abbrev two : EReal := Ideal.ofBits .f32 0x40000000#32
abbrev negTwo : EReal := Ideal.ofBits .f32 0xC0000000#32
abbrev zero : EReal := Ideal.ofBits .f32 0x00000000#32
abbrev negHalf : EReal := Ideal.ofBits .f32 0xBF000000#32

/-- The inverse variance of centre j at feature k. -/
def ic (cov : SCov.Idx → EReal) (j : Fin 1024) (k : Fin 256) : EReal := Ideal.div one (cov (ix2 j k))

/-- Centre j at feature k (the middle axis of mu has one entry). -/
def muAt (mu : SMu.Idx → EReal) (j : Fin 1024) (k : Fin 256) : EReal := mu (ix3 j (0 : Fin 1) k)

/-- Point p at feature k. -/
def xAt (x : SX.Idx → EReal) (p : Fin 65536) (k : Fin 256) : EReal := x (ix2 p k)

/-- The centre's own term Σ_k mu² · ic, summed from the literal zero. -/
def termM (mu : SMu.Idx → EReal) (cov : SCov.Idx → EReal) (j : Fin 1024) : EReal :=
  zero + ∑ k : Fin 256, (muAt mu j k * muAt mu j k) * ic cov j k

/-- The quadratic form as the reference arranges it. -/
def refQuad (x : SX.Idx → EReal) (mu : SMu.Idx → EReal) (cov : SCov.Idx → EReal) (p : Fin 65536) (j : Fin 1024) : EReal :=
  ((∑ k : Fin 256, (xAt x p k * xAt x p k) * ic cov j k)
      - two * ∑ k : Fin 256, xAt x p k * (muAt mu j k * ic cov j k))
    + termM mu cov j

/-- The quadratic form as the kernel arranges it: four contractions added left to right, then the centre's term. -/
def kerQuad (x : SX.Idx → EReal) (mu : SMu.Idx → EReal) (cov : SCov.Idx → EReal) (p : Fin 65536) (j : Fin 1024) : EReal :=
  ((((∑ k : Fin 256, (xAt x p k * xAt x p k) * ic cov j k)
        + ∑ k : Fin 256, ((xAt x p k * xAt x p k) - (xAt x p k * xAt x p k)) * ic cov j k)
      + ∑ k : Fin 256, xAt x p k * ((negTwo * muAt mu j k) * ic cov j k))
    + ∑ k : Fin 256, (xAt x p k - xAt x p k) * ((negTwo * muAt mu j k) * ic cov j k))
  + termM mu cov j

/-- The reference's result: exp(-1/2 · quad) in its arrangement. -/
def refOut (x : SX.Idx → EReal) (mu : SMu.Idx → EReal) (cov : SCov.Idx → EReal) : SOut.Idx → EReal :=
  fun i => Ideal.exp (negHalf * refQuad x mu cov (i 0) (i 1))

/-- The kernel's result: exp(-1/2 · quad) in its arrangement. -/
def kerOut (x : SX.Idx → EReal) (mu : SMu.Idx → EReal) (cov : SCov.Idx → EReal) : SOut.Idx → EReal :=
  fun i => Ideal.exp (negHalf * kerQuad x mu cov (i 0) (i 1))

end Cert.Gauss

end
-- ==== Proof.LibHostRead.lean ====
/-
  Host and kernel layout operations read at an index of a rank-2 array, and a plain matrix product as a sum.

  `broadcast_in_dim` in the five forms a row-wise reference uses — a vector as the one row or the one column of a
  matrix, a row or a column repeated along a matrix, a scalar spread over any shape —, each read at `ix2 p c`; and a
  dot that is rows × contraction times contraction × columns (`PlainDot`: one contracted axis, the four coordinate
  facts, each a `decide` or a library lemma at a literal dot) read at `(p, j)` as `Σ k, lhs (p, k) · rhs (k, j)`,
  for the host's `dot_general` and for the kernel's matrix product into the zero accumulator. On the extended reals.
-/
import Idealize.ShloMosaic.Lib.Pipeline.Value
import Idealize.ShloMosaic.Lib.ValueIdx
import Idealize.ShloMosaic.PureOps.Ideal.Laws

noncomputable section

namespace Cert.LibHostRead

open Idealize.ShloMosaic Idealize.ShloMosaic.ValueIdx

variable {α : Type}

/-- A vector `[b]` placed as the one row of `[1, b]`: at `(u, c)` it reads the vector at `c`. -/
theorem bid_b_1b_apply {b : ℕ} (x : (⟨1, ![b]⟩ : Shape).Idx → α) (h : (⟨1, ![b]⟩ : Shape).BroadcastsInDim ⟨2, ![1, b]⟩ ![1])
    (u : Fin 1) (c : Fin b) : broadcastInDim ⟨2, ![1, b]⟩ ![1] h x (ix2 u c) = x (ix1 c) :=
  broadcastInDim_apply _ h x _ _ fun a => by
    match a with
    | ⟨0, _⟩ =>
      show c.val = if b = 1 then 0 else c.val
      split
      · have := c.isLt; omega
      · rfl

/-- A row `[1, b]` repeated along `[a, b]`: at `(p, c)` it reads the row at `c`. -/
theorem bid_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) :=
  broadcastInDim_apply _ h v _ _ fun ax => by
    match ax with
    | ⟨0, _⟩ => show 0 = if (1 : ℕ) = 1 then 0 else p.val; rw [if_pos rfl]
    | ⟨1, _⟩ =>
      show c.val = if b = 1 then 0 else c.val
      split
      · have := c.isLt; omega
      · rfl

/-- A vector `[a]` placed as the one column of `[a, 1]`: at `(p, u)` it reads the vector at `p`. -/
theorem bid_a_a1_apply {a : ℕ} (x : (⟨1, ![a]⟩ : Shape).Idx → α) (h : (⟨1, ![a]⟩ : Shape).BroadcastsInDim ⟨2, ![a, 1]⟩ ![0])
    (p : Fin a) (u : Fin 1) : broadcastInDim ⟨2, ![a, 1]⟩ ![0] h x (ix2 p u) = x (ix1 p) :=
  broadcastInDim_apply _ h x _ _ fun ax => by
    match ax with
    | ⟨0, _⟩ =>
      show p.val = if a = 1 then 0 else p.val
      split
      · have := p.isLt; omega
      · rfl

/-- A column `[a, 1]` repeated along `[a, b]`: at `(p, c)` it reads the column at `p`. -/
theorem bid_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) :=
  broadcastInDim_apply _ h v _ _ fun ax => by
    match ax with
    | ⟨0, _⟩ =>
      show p.val = if a = 1 then 0 else p.val
      split
      · have := p.isLt; omega
      · rfl
    | ⟨1, _⟩ => show 0 = if (1 : ℕ) = 1 then 0 else c.val; rw [if_pos rfl]

/-- A scalar spread over any shape reads the scalar everywhere. -/
theorem bid_scalar_apply {t : Shape} (x : (⟨0, ![]⟩ : Shape).Idx → α) (h : (⟨0, ![]⟩ : Shape).BroadcastsInDim t ![])
    (i : t.Idx) : broadcastInDim t ![] h x i = x ix0 :=
  broadcastInDim_apply _ h x i ix0 fun a => a.elim0

/-- What makes a dot a plain product of an `M × K` by a `K × N` matrix: one contracted axis of extent `K`; the left operand
    is read at (row of the result, contracted coordinate), the right at (contracted coordinate, column of the result). -/
structure PlainDot {M K N : ℕ} (d : DotDims ⟨2, ![M, K]⟩ ⟨2, ![K, N]⟩ ⟨2, ![M, N]⟩) : Prop where
  hr : d.contr.rank = 1
  hs : d.contr.size ⟨0, by omega⟩ = K
  hl0 : ∀ (i : (⟨2, ![M, N]⟩ : Shape).Idx) (q : d.contr.Idx), (d.lhsIdx i q 0).val = (i 0).val
  hl1 : ∀ (i : (⟨2, ![M, N]⟩ : Shape).Idx) (q : d.contr.Idx), (d.lhsIdx i q 1).val = (q ⟨0, by omega⟩).val
  hr0 : ∀ (i : (⟨2, ![M, N]⟩ : Shape).Idx) (q : d.contr.Idx), (d.rhsIdx i q 0).val = (q ⟨0, by omega⟩).val
  hr1 : ∀ (i : (⟨2, ![M, N]⟩ : Shape).Idx) (q : d.contr.Idx), (d.rhsIdx i q 1).val = (i 1).val

/-- The sum over a plain dot's contraction index is the sum over `Fin K` of the products along row `p` and column `j`. -/
theorem PlainDot.sum_eq {M K N : ℕ} {d : DotDims ⟨2, ![M, K]⟩ ⟨2, ![K, N]⟩ ⟨2, ![M, N]⟩} (hd : PlainDot d)
    (lhs : (⟨2, ![M, K]⟩ : Shape).Idx → EReal) (rhs : (⟨2, ![K, N]⟩ : Shape).Idx → EReal) (p : Fin M) (j : Fin N) :
    ∑ k : d.contr.Idx, lhs (d.lhsIdx (ix2 p j) k) * rhs (d.rhsIdx (ix2 p j) k) = ∑ k : Fin K, lhs (ix2 p k) * rhs (ix2 k j) := by
  rw [← Equiv.sum_comp (contrEquiv1 d K hd.hr hd.hs).symm]
  refine Finset.sum_congr rfl fun k _ => ?_
  have hk := contrEquiv1_symm_val d K hd.hr hd.hs k
  have el : d.lhsIdx (ix2 p j) ((contrEquiv1 d K hd.hr hd.hs).symm k) = ix2 p k := funext fun a => Fin.ext (by
    match a with
    | ⟨0, _⟩ => exact hd.hl0 _ _
    | ⟨1, _⟩ => exact (hd.hl1 _ _).trans hk)
  have er : d.rhsIdx (ix2 p j) ((contrEquiv1 d K hd.hr hd.hs).symm k) = ix2 k j := funext fun a => Fin.ext (by
    match a with
    | ⟨0, _⟩ => exact (hd.hr0 _ _).trans hk
    | ⟨1, _⟩ => exact hd.hr1 _ _)
  rw [el, er]

/-- The host's product of two matrices at `(p, j)`. -/
theorem dotGeneral_plain_apply {M K N : ℕ} {φ₁ φ₂ : FTy} (d : DotDims ⟨2, ![M, K]⟩ ⟨2, ![K, N]⟩ ⟨2, ![M, N]⟩)
    (hd : PlainDot d) (lhs : FVec Ideal ⟨2, ![M, K]⟩ φ₁) (rhs : FVec Ideal ⟨2, ![K, N]⟩ φ₂) (p : Fin M) (j : Fin N) :
    FloatOps.dotGeneral d none .single lhs rhs (ix2 p j) = ∑ k : Fin K, lhs (ix2 p k) * rhs (ix2 k j) := by
  rw [Ideal.dotGeneral_apply]
  exact hd.sum_eq lhs rhs p j

/-- The kernel's matrix product into the zero accumulator at `(p, j)`. -/
theorem matmul_plain_zero_apply {M K N : ℕ} {φ₁ φ₂ : FTy} (d : DotDims ⟨2, ![M, K]⟩ ⟨2, ![K, N]⟩ ⟨2, ![M, N]⟩)
    (hd : PlainDot d) (lhs : FVec Ideal ⟨2, ![M, K]⟩ φ₁) (rhs : FVec Ideal ⟨2, ![K, N]⟩ φ₂) (p : Fin M) (j : Fin N) :
    FloatOps.matmul d none lhs rhs (constant ⟨2, ![M, N]⟩ .f32 0x00000000#32) (ix2 p j)
      = ∑ k : Fin K, lhs (ix2 p k) * rhs (ix2 k j) := by
  rw [Ideal.matmul_constant_zero_apply]
  exact hd.sum_eq lhs rhs p j

end Cert.LibHostRead

end
-- ==== Proof.LibPlainDot.lean ====
/-
  The plain matrix product's dimension numbers read as rows times columns.

  The dimension numbers of an M × K by K × N product — the left operand contracted on its second axis, the right on
  its first, no batch axis — satisfy the four coordinate facts of `PlainDot`: the left operand is read at (row of the
  result, contracted coordinate), the right at (contracted coordinate, column of the result). A printed product with
  these dimension numbers is this record up to the proof of its well-formedness, so the facts transfer to it by
  unfolding.
-/
import proofs.«118681_j65034394796366_2_alg».proof.Proof.LibHostRead
import Idealize.ShloMosaic.Lib.ValueLayout

noncomputable section

namespace Cert.LibPlainDot

open Idealize.ShloMosaic Idealize.ShloMosaic.ValueIdx Cert.LibHostRead

/-- The plain M × K by K × N product is rows times columns. -/
theorem plainDot_plain (M K N : ℕ) : PlainDot (DotDims.plain M K N) where
  hr := rfl
  hs := rfl
  hl0 := fun _ _ => rfl
  hl1 := fun _ _ => rfl
  hr0 := fun _ _ => rfl
  hr1 := fun _ _ => rfl

/-- A vector placed as the one row of a matrix and repeated along the rows reads, at (p, c), the vector at c. -/
theorem rowBias_apply {α : Type} {a b : ℕ} (x : (⟨1, ![b]⟩ : Shape).Idx → α)
    (hs : (⟨1, ![b]⟩ : Shape).ShapeCasts ⟨2, ![1, b]⟩) (hb : (⟨2, ![1, b]⟩ : Shape).Broadcasts ⟨2, ![a, b]⟩)
    (p : Fin a) (c : Fin b) :
    broadcastTo ⟨2, ![a, b]⟩ (shapeCast ⟨2, ![1, b]⟩ x hs) hb (ix2 p c) = x (ix1 c) := by
  rw [broadcastTo_1b_ab_apply, shapeCast_a_1a_apply]

/-- The vector unit's matrix product into the zero accumulator, at (p, j), is the sum over the contracted axis. -/
theorem vmatmul_apply {M K N : ℕ} {φ₁ φ₂ : FTy} (d : DotDims ⟨2, ![M, K]⟩ ⟨2, ![K, N]⟩ ⟨2, ![M, N]⟩) (hd : PlainDot d)
    (lhs : FVec Ideal ⟨2, ![M, K]⟩ φ₁) (rhs : FVec Ideal ⟨2, ![K, N]⟩ φ₂) (p : Fin M) (j : Fin N) :
    matmul d none lhs rhs (constant ⟨2, ![M, N]⟩ .f32 0x00000000#32) (ix2 p j) = ∑ k : Fin K, lhs (ix2 p k) * rhs (ix2 k j) :=
  matmul_plain_zero_apply d hd lhs rhs p j

/-- The host's matrix product at (p, j) is the sum over the contracted axis. -/
theorem hdot_apply {M K N : ℕ} {φ₁ φ₂ : FTy} (d : DotDims ⟨2, ![M, K]⟩ ⟨2, ![K, N]⟩ ⟨2, ![M, N]⟩) (hd : PlainDot d)
    (lhs : FVec Ideal ⟨2, ![M, K]⟩ φ₁) (rhs : FVec Ideal ⟨2, ![K, N]⟩ φ₂) (p : Fin M) (j : Fin N) :
    Host.dotGeneral d none lhs rhs (ix2 p j) = ∑ k : Fin K, lhs (ix2 p k) * rhs (ix2 k j) :=
  dotGeneral_plain_apply d hd lhs rhs p j

end Cert.LibPlainDot

end
-- ==== Proof.GaussPayload.lean ====
/-
  One half-slab of the kernel's body, read at an index.

  The body computes, for 1024 rows xs of its point block and the three parameter blocks a = icᵀ, b = (-2·mu·ic)ᵀ
  (both [256, 1024]) and t = the centres' own terms ([1, 1024]),

      exp(-1/2 · (((xs²·a + (xs² - xs²)·a) + xs·b) + (xs - xs)·b + t)),

  each product a contraction over the 256 features into a zero accumulator, the changes of float format the
  identity on the extended reals. At row p and column j this is exp(-1/2 · blkQuad (xs p ·) a b t j), where
  blkQuad adds the four contractions left to right and then t[0, j]. The body does this twice, for the lower and
  the upper half of the point block; the two payload terms are one function of the half they are given.
-/
import proofs.«118681_j65034394796366_2_alg».proof.Proof.Gen.KernelIdeal.Skeleton
import proofs.«118681_j65034394796366_2_alg».proof.Proof.GaussSpec
import proofs.«118681_j65034394796366_2_alg».proof.Proof.LibPlainDot
import Idealize.ShloMosaic.Lib.Pipeline.Value
import Idealize.ShloMosaic.Lib.ValueLayout

noncomputable section

open scoped BigOperators

namespace Cert.Gauss.Kernel

open Cert.KernelIdeal Cert.KernelIdeal.Gen Idealize.ShloMosaic Idealize.ShloMosaic.ValueIdx
open Cert.LibHostRead Cert.LibPlainDot

/-- The body's matrix product is rows times columns: the left operand [1024, 256] contracted on its second axis,
    the right [256, 1024] on its first. -/
theorem plainDot : PlainDot dot_S1024x256_S256x1024_S1024x1024_1_0_0_1_n_n where
  hr := rfl
  hs := rfl
  hl0 := fun i q => by
    unfold DotDims.lhsIdx
    rw [dif_neg (show ¬(0 : Fin S1024x256.rank) ∈ dot_S1024x256_S256x1024_S1024x1024_1_0_0_1_n_n.lhsBatch by decide),
      dif_pos (show (0 : Fin S1024x256.rank) ∈ dot_S1024x256_S256x1024_S1024x1024_1_0_0_1_n_n.lhsNonContracting by decide)]
    rfl
  hl1 := fun i q => dot_S1024x256_S256x1024_S1024x1024_1_0_0_1_n_n.lhsIdx_val_of_single rfl i q
  hr0 := fun i q => dot_S1024x256_S256x1024_S1024x1024_1_0_0_1_n_n.rhsIdx_val_of_single rfl i q
  hr1 := fun i q => by
    unfold DotDims.rhsIdx
    rw [dif_neg (show ¬(1 : Fin S256x1024.rank) ∈ dot_S1024x256_S256x1024_S1024x1024_1_0_0_1_n_n.rhsBatch by decide),
      dif_pos (show (1 : Fin S256x1024.rank) ∈ dot_S1024x256_S256x1024_S1024x1024_1_0_0_1_n_n.rhsNonContracting by decide)]
    rfl

/-- The quadratic form of one row xr against column j of the parameter blocks: the four contractions over the
    features added left to right, then the centre's term. -/
def blkQuad (xr : Fin 256 → EReal) (a b : S256x1024.Idx → EReal) (t : S1x1024.Idx → EReal) (j : Fin 1024) : EReal :=
  ((((∑ k : Fin 256, (xr k * xr k) * a (ix2 k j))
        + ∑ k : Fin 256, ((xr k * xr k) - (xr k * xr k)) * a (ix2 k j))
      + ∑ k : Fin 256, xr k * b (ix2 k j))
    + ∑ k : Fin 256, (xr k - xr k) * b (ix2 k j))
  + t (ix2 (0 : Fin 1) j)

/-- The lower half's payload at row p, column j. -/
theorem pay5_apply (v0 v2 : FVec Ideal S256x1024 .bf16) (v4 : FVec Ideal S1x1024 .f32) (v9 : FVec Ideal S1024x256 .f32)
    (p : Fin 1024) (j : Fin 1024) :
    k0_pay5 (F := Ideal) v0 v2 v4 v9 (ix2 p j)
      = Ideal.exp (Cert.Gauss.negHalf * blkQuad (fun k => v9 (ix2 p k)) v0 v2 v4 j) := by
  unfold k0_pay5 k0_pay2 k0_pay3 k0_pay4
  dsimp only
  rw [shapeCast_self v0, shapeCast_self v2, shapeCast_self v4]
  unfold blkQuad
  refine congrArg Ideal.exp (congrArg (Cert.Gauss.negHalf * ·) ?_)
  refine congrArg₂ (· + ·) (congrArg₂ (· + ·) (congrArg₂ (· + ·) (congrArg₂ (· + ·) ?_ ?_) ?_) ?_) ?_
  · exact vmatmul_apply _ plainDot _ _ p j
  · exact vmatmul_apply _ plainDot _ _ p j
  · exact vmatmul_apply _ plainDot _ _ p j
  · exact vmatmul_apply _ plainDot _ _ p j
  · exact broadcastTo_1b_ab_apply v4 _ p j

/-- The upper half's payload is the same function of its rows. -/
theorem pay1_eq_pay5 {F : FTy → Type} [FloatOps F] (v0 v2 : Vec F S256x1024 .bf16) (v4 : Vec F S1x1024 .f32) (v36 : Vec F S1024x256 .f32) :
    k0_pay1 (k0_pay2 v0) (k0_pay3 v2) (k0_pay4 v4) v36 (k0_pay6 v36) (k0_pay7 v36) (k0_pay8 v36) = k0_pay5 v0 v2 v4 v36 := rfl

end Cert.Gauss.Kernel

end
-- ==== Proof.GaussPieces.lean ====
/-
  What the kernel's body leaves in the output block, as one function of the blocks it was given.

  The body writes the output block [2048, 1024] in two stores: rows 0..1023 from rows 0..1023 of the point block,
  rows 1024..2047 from rows 1024..2047. Each store's value at (p, j) depends on ONE row of the point block — the row
  at the same height in the output block — and on column j of the parameter blocks. So the two stores are two
  tiles of one function of the block index,

      blkOut x0 a b t (r, j) = exp(-1/2 · blkQuad (x0 r ·) a b t j),

  and what the stores leave, read back, is that function: no order of the stores matters.
-/
import proofs.«118681_j65034394796366_2_alg».proof.Proof.Gen.KernelIdeal.Frame
import proofs.«118681_j65034394796366_2_alg».proof.Proof.GaussPayload
import Idealize.ShloMosaic.Lib.Pipeline.Value
import Idealize.ShloMosaic.Lib.Tactic

noncomputable section

open scoped BigOperators

namespace Cert.Gauss.Kernel

open Cert.KernelIdeal Cert.KernelIdeal.Gen Idealize.ShloMosaic Idealize.ShloMosaic.TcCoe Idealize.ShloMosaic.Tactic
open Idealize.SL.Sem Idealize.ShloMosaic.ValueIdx

/-- The output block as a function of the point block x0 and the three parameter blocks: entry (r, j) is
    exp(-1/2 · the quadratic form of row r against column j). -/
def blkOut (x0 : S2048x256.Idx → EReal) (x1 x2 : S256x1024.Idx → EReal) (x3 : S1x1024.Idx → EReal) :
    S2048x1024.Idx → EReal :=
  fun y => Ideal.exp (Cert.Gauss.negHalf * blkQuad (fun k => x0 (ix2 (y 0) k)) x1 x2 x3 (y 1))

theorem hz : (![0, 0] : Fin 2 → Nat) = fun _ => 0 := funext fun a => by fin_cases a <;> rfl

/-- Two rows and two columns that are equal give equal entries. -/
theorem entry_congr (x1 x2 : S256x1024.Idx → EReal) (x3 : S1x1024.Idx → EReal) (f g : Fin 256 → EReal) (j j' : Fin 1024)
    (hf : f = g) (hj : j = j') :
    Ideal.exp (Cert.Gauss.negHalf * blkQuad f x1 x2 x3 j) = Ideal.exp (Cert.Gauss.negHalf * blkQuad g x1 x2 x3 j') := by
  subst hf; subst hj; rfl

/-- A half-slab: the payload of the 1024 rows of the point block that start at row o, at (p, j), is the block
    function at row o + p — the index the store's rectangle (rows o .. o + 1023 of the output block) gives (p, j). -/
theorem half_apply (x0 : FVec Ideal S2048x256 .f32) (x1 x2 : FVec Ideal S256x1024 .bf16) (x3 : FVec Ideal S1x1024 .f32)
    (o : Nat) (inbIn : ∀ a, (![o, 0] : Fin 2 → Nat) a + S1024x256.size a ≤ S2048x256.size a)
    (inbOut : ∀ a, (![o, 0] : Fin 2 → Nat) a + (![1024, 1024] : Fin 2 → Nat) a ≤ S2048x1024.size a) (p j : Fin 1024) :
    k0_pay5 (F := Ideal) x1 x2 x3 (View.ld x0 (Rect.unit (s := S2048x256) ![o, 0] S1024x256.size inbIn)) (ix2 p j)
      = blkOut x0 x1 x2 x3 ((Rect.unit (s := S2048x1024) ![o, 0] ![1024, 1024] inbOut).emb (ix2 p j)) := by
  refine (pay5_apply x1 x2 x3 _ p j).trans ?_
  unfold blkOut
  dsimp only
  refine entry_congr x1 x2 x3 _ _ _ _ (funext fun k => congrArg x0 (funext fun a => Fin.ext ?_)) (Fin.ext ?_)
  · match a with
    | ⟨0, _⟩ => rfl
    | ⟨1, _⟩ => show 0 + 1 * k.val = k.val; omega
  · show j.val = 0 + 1 * j.val; omega

/-- What the body leaves in the output block is the block function of the blocks it read. -/
theorem out_A_eq (c : Dev nD) (i : grid0.Coords) (arg1 : Memref sig .tc .vmem S2048x256 .f32) (harg1 : arg1.IsWhole)
    (arg2 : Memref sig .tc .vmem S256x1024 .bf16) (harg2 : arg2.IsWhole) (arg3 : Memref sig .tc .vmem S256x1024 .bf16) (harg3 : arg3.IsWhole)
    (arg4 : Memref sig .tc .vmem S1x1024 .f32) (harg4 : arg4.IsWhole) (arg5 : Memref sig .tc .vmem S2048x1024 .f32) (harg5 : arg5.IsWhole)
    (x0 : Vec Ideal S2048x256 .f32) (x1 : Vec Ideal S256x1024 .bf16) (x2 : Vec Ideal S256x1024 .bf16) (x3 : Vec Ideal S1x1024 .f32) :
    out0_A_4 (F := Ideal) c i arg1 harg1 arg2 harg2 arg3 harg3 arg4 harg4 arg5 harg5 x0 x1 x2 x3 = blkOut x0 x1 x2 x3 := by
  funext y
  unfold out0_A_4
  rw [View.read_writes_eq_canon _ _ _ (cover0_A_4 c i arg1 harg1 arg2 harg2 arg3 harg3 arg4 harg4 arg5 harg5 x0 x1 x2 x3)]
  refine View.canon_apply_of_pieces (blkOut x0 x1 x2 x3) _ ?_ y
    (cover0_A_4 c i arg1 harg1 arg2 harg2 arg3 harg3 arg4 harg4 arg5 harg5 x0 x1 x2 x3 y)
  unfold kernelRun0_A
  dsimp only
  sl_unfold_words
  intro pc hpc
  rcases List.mem_cons.mp hpc with rfl | hpc
  · intro x
    obtain ⟨p, j, rfl⟩ : ∃ (p : Fin 1024) (j : Fin 1024), x = ix2 p j := ⟨x 0, x 1, eq_ix2 x⟩
    simp only [View.readAt_eq_ld, harg1.read_unread, harg2.read_unread, harg3.read_unread, harg4.read_unread,
      View.ld_unit_zero (S := S256x1024) hz, View.ld_unit_zero (S := S1x1024) hz]
    rw [pay1_eq_pay5]
    exact half_apply x0 x1 x2 x3 1024 _ _ p j
  · rcases List.mem_cons.mp hpc with rfl | hpc
    · intro x
      obtain ⟨p, j, rfl⟩ : ∃ (p : Fin 1024) (j : Fin 1024), x = ix2 p j := ⟨x 0, x 1, eq_ix2 x⟩
      simp only [View.readAt_eq_ld, harg1.read_unread, harg2.read_unread, harg3.read_unread, harg4.read_unread,
        View.ld_unit_zero (S := S256x1024) hz, View.ld_unit_zero (S := S1x1024) hz]
      exact half_apply x0 x1 x2 x3 0 _ _ p j
    · exact absurd hpc List.not_mem_nil

end Cert.Gauss.Kernel

end
-- ==== Proof.GaussHost.lean ====
/-
  What the kernel program's host operations leave, before its one kernel call, in the three parameter arrays the
  call stages, read index by index on the extended reals. With mu the centres [1024, 1, 256], cov the variances
  [1024, 256] and ic[j, k] = 1 / cov[j, k]:

      the [256, 1024] array of inverse variances, transposed:   at (k, j) it holds  ic[j, k];
      the [256, 1024] array of scaled centres, transposed:      at (k, j) it holds  (-2 · mu[j, k]) · ic[j, k];
      the [1, 1024] row of the centres' own terms:              at (0, j) it holds  0 + Σ_k (mu[j, k] · mu[j, k]) · ic[j, k].

  Each array is first written as the composition of the operations that produce it from the program's arguments:
  a reshape of mu that drops its unit axis, the quotient of a spread constant by cov, products, a sum over the
  feature axis from the literal zero, a transposition, a change of format (the identity on the extended reals), a
  reshape that adds a unit axis. The composition is then read at an index one operation at a time: an elementwise
  operation reads its operands at the same index, a transposition at the swapped index, a reshape at the index
  with the same row-major position, a spread scalar at its one index, and the sum over the feature axis at row j
  is the initial value plus the sum over k of the operand at (j, k).
-/
import proofs.«118681_j65034394796366_2_alg».proof.Proof.Gen.KernelIdeal.Frame
import proofs.«118681_j65034394796366_2_alg».proof.Proof.GaussSpec
import proofs.«118681_j65034394796366_2_alg».proof.Proof.LibHostRead
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.Gauss.Host

open Cert.KernelIdeal Cert.KernelIdeal.Gen Idealize.ShloMosaic Idealize.ShloMosaic.ValueIdx Idealize.ShloMosaic.TcCoe
open Idealize.SL.Sem Idealize.ShloMosaic.StableHlo

/-! ## The operations read at an index, over any operands -/

section Read

variable (x1 : SMu.Idx → EReal) (x2 : SCov.Idx → EReal)

/-- The reshape [1024, 1, 256] → [1024, 256] reads, at (j, k), the operand at (j, 0, k): both have row-major
    position 256 · j + k. -/
theorem reshape_mu_apply (j : Fin 1024) (k : Fin 256) :
    shapeCast S1024x256 x1 shapeCasts_S1024x1x256_S1024x256 (ix2 j k) = muAt x1 j k :=
  shapeCast_apply x1 shapeCasts_S1024x1x256_S1024x256 (ix2 j k) (ix3 j (0 : Fin 1) k) (by
    rewrite [Shape.rowMajor_val_three, Shape.rowMajor_val_two]
    show (j.val * 1 + 0) * 256 + k.val = j.val * 256 + k.val
    omega)

/-- A float literal spread over [1024, 256] reads the literal's value everywhere. -/
theorem spread_apply (b : BitVec 32) (i : S1024x256.Idx) :
    broadcastInDim S1024x256 ![] bcast_S_S1024x256 (constant (F := Ideal) S_ .f32 b) i = Ideal.ofBits .f32 b :=
  Cert.LibHostRead.bid_scalar_apply (constant (F := Ideal) S_ .f32 b) bcast_S_S1024x256 i

/-- The quotient of the spread 1 by cov reads, at (j, k), the inverse variance ic[j, k]. -/
theorem inv_cov_apply (j : Fin 1024) (k : Fin 256) :
    Host.divf (broadcastInDim S1024x256 ![] bcast_S_S1024x256 (constant (F := Ideal) S_ .f32 0x3F800000#32)) x2 (ix2 j k)
      = ic x2 j k := by
  show Ideal.div (broadcastInDim S1024x256 ![] bcast_S_S1024x256 (constant (F := Ideal) S_ .f32 0x3F800000#32) (ix2 j k)) (x2 (ix2 j k))
      = Ideal.div one (x2 (ix2 j k))
  rw [spread_apply]

/-- The transposition [1024, 256] → [256, 1024] reads, at (k, j), the operand at (j, k). -/
theorem transpose_apply_kj {α : Type} (y : S1024x256.Idx → α) (k : Fin 256) (j : Fin 1024) :
    transpose S256x1024 [1, 0] y transposes_S1024x256_S256x1024_1_0 (ix2 k j) = y (ix2 j k) :=
  transpose_apply [1, 0] y transposes_S1024x256_S256x1024_1_0 (ix2 k j) (ix2 j k) (fun b => by
    match b with
    | ⟨0, _⟩ => rfl
    | ⟨1, _⟩ => rfl)

/-- The sum over the feature axis from the literal zero reads, at j, zero plus the sum over k of the operand at
    (j, k). -/
theorem sum_features_apply (y : S1024x256.Idx → EReal) (j : Fin 1024) :
    Host.reduceAdd (F := Ideal) (φ := .f32) y (constant (F := Ideal) S_ .f32 0x00000000#32) reducesTo_S1024x256_S1024_d1 h_S_ (ix1 j)
      = zero + ∑ k : Fin 256, y (ix2 j k) := by
  simp only [Host.reduceAdd, Ideal.hostReduceAdd_def]
  rw [Ideal.hostReduceAdd_single reducesTo_S1024x256_S1024_d1 (by decide)]
  refine congrArg (zero + ·) (Finset.sum_congr rfl fun k _ => ?_)
  exact congrArg y (funext fun a => Fin.ext (by match a with | ⟨0, _⟩ => rfl | ⟨1, _⟩ => rfl))

end Read

/-! ## The three arrays as the operations' terms -/

section Arrays

variable (m : (ℓ : Loc nD τ sig) → Buf (Elt Ideal) ℓ) (c : Dev nD)

/-- The inverse variances, transposed: the quotient of the spread 1 by cov, transposed, its format changed. -/
theorem icT_term :
    (V m c main_v10 : S256x1024.Idx → EReal)
      = truncf .bf16 (transpose S256x1024 [1, 0]
          (Host.divf (broadcastInDim S1024x256 ![] bcast_S_S1024x256 (constant (F := Ideal) S_ .f32 0x3F800000#32))
            (m ((c.tc : Thread nD τ).loc main_arg2)))
          transposes_S1024x256_S256x1024_1_0) bitsLt_bf16_f32 := by
  dsimp only [Gen.V, Gen.hostOps0]; after_results

/-- The scaled centres, transposed: (the spread -2 times the reshaped mu) times the inverse variances, transposed,
    its format changed. -/
theorem nmT_term :
    (V m c main_v12 : S256x1024.Idx → EReal)
      = truncf .bf16 (transpose S256x1024 [1, 0]
          (mulf (mulf (broadcastInDim S1024x256 ![] bcast_S_S1024x256 (constant (F := Ideal) S_ .f32 0xC0000000#32))
              (shapeCast S1024x256 (m ((c.tc : Thread nD τ).loc main_arg1)) shapeCasts_S1024x1x256_S1024x256))
            (Host.divf (broadcastInDim S1024x256 ![] bcast_S_S1024x256 (constant (F := Ideal) S_ .f32 0x3F800000#32))
              (m ((c.tc : Thread nD τ).loc main_arg2))))
          transposes_S1024x256_S256x1024_1_0) bitsLt_bf16_f32 := by
  dsimp only [Gen.V, Gen.hostOps0]; after_results; rfl

/-- The centres' own terms: (the reshaped mu squared) times the inverse variances, summed over the feature axis
    from the literal zero, a unit axis added in front. -/
theorem term_term :
    (V m c main_v13 : S1x1024.Idx → EReal)
      = shapeCast S1x1024
          (Host.reduceAdd (F := Ideal) (φ := .f32)
            (mulf (mulf (shapeCast S1024x256 (m ((c.tc : Thread nD τ).loc main_arg1)) shapeCasts_S1024x1x256_S1024x256)
                (shapeCast S1024x256 (m ((c.tc : Thread nD τ).loc main_arg1)) shapeCasts_S1024x1x256_S1024x256))
              (Host.divf (broadcastInDim S1024x256 ![] bcast_S_S1024x256 (constant (F := Ideal) S_ .f32 0x3F800000#32))
                (m ((c.tc : Thread nD τ).loc main_arg2))))
            (constant (F := Ideal) S_ .f32 0x00000000#32) reducesTo_S1024x256_S1024_d1 h_S_)
          shapeCasts_S1024_S1x1024 := by
  dsimp only [Gen.V, Gen.hostOps0]; after_results; rfl

/-! ## The three arrays at an index -/

/-- The first staged parameter holds, at (k, j), the inverse variance ic[j, k]. -/
theorem V_icT (p : Fin 256) (j : Fin 1024) :
    (V m c main_v10 : S256x1024.Idx → EReal) (ix2 p j) = ic (m ((c.tc : Thread nD τ).loc main_arg2)) j p := by
  rw [icT_term, truncf_apply, transpose_apply_kj]
  exact inv_cov_apply _ j p

/-- The second staged parameter holds, at (k, j), (-2 · mu[j, k]) · ic[j, k]. -/
theorem V_nmT (p : Fin 256) (j : Fin 1024) :
    (V m c main_v12 : S256x1024.Idx → EReal) (ix2 p j)
      = (negTwo * muAt (m ((c.tc : Thread nD τ).loc main_arg1)) j p) * ic (m ((c.tc : Thread nD τ).loc main_arg2)) j p := by
  rw [nmT_term, truncf_apply, transpose_apply_kj, mulf_apply, mulf_apply, spread_apply, reshape_mu_apply, inv_cov_apply]

/-- The third staged parameter holds, at (0, j), the centre's own term 0 + Σ_k (mu[j, k] · mu[j, k]) · ic[j, k]. -/
theorem V_term (u : Fin 1) (j : Fin 1024) :
    (V m c main_v13 : S1x1024.Idx → EReal) (ix2 u j)
      = termM (m ((c.tc : Thread nD τ).loc main_arg1)) (m ((c.tc : Thread nD τ).loc main_arg2)) j := by
  rw [term_term, shapeCast_a_1a_apply, sum_features_apply]
  unfold termM
  refine congrArg (zero + ·) (Finset.sum_congr rfl fun k _ => ?_)
  rw [mulf_apply, mulf_apply, reshape_mu_apply, inv_cov_apply]

end Arrays

end Cert.Gauss.Host

end
-- ==== Proof.GaussBlocks.lean ====
/-
  From blocks to the array: after the run the kernel's result array is kerOut of the three arguments.

  The grid has 32 points. Point t stages rows 2048·t .. 2048·t + 2047 of the points (block index (t, 0)) and the
  whole of each parameter array (block index (0, 0)), and writes back rows 2048·t .. 2048·t + 2047 of the result
  (block index (t, 0)); these relations between the printed index maps are decided once over the grid. What point t
  writes back is the block function of what it staged; entry (r, j) of it reads row 2048·t + r of the points and
  column j of the parameter arrays, which the host operations before the call filled with icᵀ, (-2·mu·ic)ᵀ and the
  centres' terms. That is entry (2048·t + r, j) of kerOut. Row n of the result lies in the block of point n / 2048,
  so the blocks cover the array.
-/
import proofs.«118681_j65034394796366_2_alg».proof.Proof.Gen.KernelIdeal.Value
import proofs.«118681_j65034394796366_2_alg».proof.Proof.GaussPieces
import proofs.«118681_j65034394796366_2_alg».proof.Proof.GaussHost
import Idealize.ShloMosaic.Lib.Pipeline.Value

noncomputable section

open scoped BigOperators

namespace Cert.Gauss.Kernel

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The printed index maps, decided over the 32 grid points: the point block and the result block move with the
    point along the rows; the parameter blocks do not move. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The quadratic form of a staged row against the staged parameter blocks is the kernel's arrangement of the
    quadratic form of the arguments, once each staged entry is identified with the argument entry it holds. -/
theorem blkQuad_eq_kerQuad (x : SX.Idx → EReal) (mu : SMu.Idx → EReal) (cov : SCov.Idx → EReal)
    (xr : Fin 256 → EReal) (a b : S256x1024.Idx → EReal) (t : S1x1024.Idx → EReal) (P : Fin 65536) (J J' : Fin 1024)
    (hx : ∀ k, xr k = xAt x P k) (ha : ∀ k, a (ix2 k J') = ic cov J k)
    (hb : ∀ k, b (ix2 k J') = (negTwo * muAt mu J k) * ic cov J k) (ht : t (ix2 (0 : Fin 1) J') = termM mu cov J) :
    blkQuad xr a b t J' = kerQuad x mu cov P J := by
  unfold blkQuad kerQuad
  simp only [hx, ha, hb, ht]

/-- An index of the result array is in point t's block iff each coordinate is in the block's range on its axis. -/
theorem mem_blk (t : Fin cfg0.N) (i : S65536x1024.Idx) :
    i ∈ ((cfg0.win 4).blk t).view.set ↔ ∀ a : Fin 2, win0_4.index t a * S2048x1024.size a ≤ (i a).val ∧ (i a).val < win0_4.index t a * S2048x1024.size a + S2048x1024.size a := by
  show i ∈ ((View.whole main_v14).slice (win0_4.rect t)).set ↔ _
  rw [View.set_slice_whole, Rect.mem_set_unit]
  exact Iff.rfl

/-- Every index of the result array is in the block of the point its row falls in. -/
theorem cover (i : S65536x1024.Idx) : ∃ t : Fin cfg0.N, (cfg0.win 4).flush t = true ∧ i ∈ ((cfg0.win 4).blk t).view.set := by
  have hN : cfg0.N = 32 := N_0
  have hi0 : (i 0).val < 65536 := (i 0).isLt
  have hi1 : (i 1).val < 1024 := (i 1).isLt
  have hlt : (i 0).val / 2048 < cfg0.N := by rw [hN]; omega
  obtain ⟨-, -, -, -, -, -, -, -, e8, e9⟩ := idx_facts ⟨(i 0).val / 2048, hlt⟩
  refine ⟨⟨(i 0).val / 2048, hlt⟩, flush0_4 _, ?_⟩
  rw [mem_blk]
  intro a
  match a with
  | ⟨0, _⟩ =>
    show win0_4.index ⟨(i 0).val / 2048, hlt⟩ (0 : Fin 2) * 2048 ≤ (i 0).val ∧ (i 0).val < win0_4.index ⟨(i 0).val / 2048, hlt⟩ (0 : Fin 2) * 2048 + 2048
    rw [e8]; show (i 0).val / 2048 * 2048 ≤ (i 0).val ∧ (i 0).val < (i 0).val / 2048 * 2048 + 2048; omega
  | ⟨1, _⟩ =>
    show win0_4.index ⟨(i 0).val / 2048, hlt⟩ (1 : Fin 2) * 1024 ≤ (i 1).val ∧ (i 1).val < win0_4.index ⟨(i 0).val / 2048, hlt⟩ (1 : Fin 2) * 1024 + 1024
    rw [e9]; omega

/-- WHAT POINT t WRITES BACK is block t of kerOut of the arguments. -/
theorem flushed_eq (c : Dev nD) (t : Fin cfg0.N) :
    (dats m 0 c).flushed 4 t = ((cfg0.win 4).blk t).view.read (Elt Ideal)
      (kerOut (m ((c : Thread nD τ).loc main_arg0)) (m ((c : Thread nD τ).loc main_arg1)) (m ((c : Thread nD τ).loc main_arg2))) := by
  rw [Cert.KernelIdeal.Value.flushed4_A, out_A_eq]
  obtain ⟨e0, e1, e2, e3, e4, e5, e6, e7, e8, e9⟩ := idx_facts t
  funext y
  show blkOut (iblk m c 0 t) (iblk m c 1 t) (iblk m c 2 t) (iblk m c 3 t) y
    = kerOut (m ((c : Thread nD τ).loc main_arg0)) (m ((c : Thread nD τ).loc main_arg1)) (m ((c : Thread nD τ).loc main_arg2)) (((cfg0.win 4).blk t).view.emb y)
  unfold blkOut kerOut
  refine congrArg Ideal.exp (congrArg (negHalf * ·) (blkQuad_eq_kerQuad _ _ _ _ _ _ _ _ _ _ ?_ ?_ ?_ ?_))
  · intro k
    show V m c main_arg0 (((cfg0.win 0).blk t).view.emb (ix2 (y 0) k)) = m ((c : Thread nD τ).loc main_arg0) (ix2 ((((cfg0.win 4).blk t).view.emb y) 0) k)
    rw [V_main_arg0]
    refine congrArg _ (funext fun a => Fin.ext ?_)
    match a with
    | ⟨0, _⟩ => show win0_0.index t (0 : Fin 2) * 2048 + 1 * (y 0).val = win0_4.index t (0 : Fin 2) * 2048 + 1 * (y 0).val; rw [e0, e8]
    | ⟨1, _⟩ => show win0_0.index t (1 : Fin 2) * 256 + 1 * k.val = k.val; rw [e1]; omega
  · intro k
    show V m c main_v10 (((cfg0.win 1).blk t).view.emb (ix2 k (y 1))) = _
    have e : ((cfg0.win 1).blk t).view.emb (ix2 k (y 1)) = ix2 k ((((cfg0.win 4).blk t).view.emb y) 1) := funext fun a => Fin.ext (by
      match a with
      | ⟨0, _⟩ => show win0_1.index t (0 : Fin 2) * 256 + 1 * k.val = k.val; rw [e2]; omega
      | ⟨1, _⟩ => show win0_1.index t (1 : Fin 2) * 1024 + 1 * (y 1).val = win0_4.index t (1 : Fin 2) * 1024 + 1 * (y 1).val; rw [e3, e9])
    rw [e]
    exact Cert.Gauss.Host.V_icT m c k _
  · intro k
    show V m c main_v12 (((cfg0.win 2).blk t).view.emb (ix2 k (y 1))) = _
    have e : ((cfg0.win 2).blk t).view.emb (ix2 k (y 1)) = ix2 k ((((cfg0.win 4).blk t).view.emb y) 1) := funext fun a => Fin.ext (by
      match a with
      | ⟨0, _⟩ => show win0_2.index t (0 : Fin 2) * 256 + 1 * k.val = k.val; rw [e4]; omega
      | ⟨1, _⟩ => show win0_2.index t (1 : Fin 2) * 1024 + 1 * (y 1).val = win0_4.index t (1 : Fin 2) * 1024 + 1 * (y 1).val; rw [e5, e9])
    rw [e]
    exact Cert.Gauss.Host.V_nmT m c k _
  · show V m c main_v13 (((cfg0.win 3).blk t).view.emb (ix2 (0 : Fin 1) (y 1))) = _
    have e : ((cfg0.win 3).blk t).view.emb (ix2 (0 : Fin 1) (y 1)) = ix2 (0 : Fin 1) ((((cfg0.win 4).blk t).view.emb y) 1) := funext fun a => Fin.ext (by
      match a with
      | ⟨0, _⟩ => show win0_3.index t (0 : Fin 2) * 1 + 1 * 0 = 0; rw [e6]
      | ⟨1, _⟩ => show win0_3.index t (1 : Fin 2) * 1024 + 1 * (y 1).val = win0_4.index t (1 : Fin 2) * 1024 + 1 * (y 1).val; rw [e7, e9])
    rw [e]
    exact Cert.Gauss.Host.V_term m c 0 _

/-- THE RESULT ARRAY after the run is kerOut of the arguments. -/
theorem final (c : Dev nD) : (dats m 0 c).arrAt 4 cfg0.N
    = kerOut (m ((c : Thread nD τ).loc main_arg0)) (m ((c : Thread nD τ).loc main_arg1)) (m ((c : Thread nD τ).loc main_arg2)) :=
  (dats m 0 c).arrAt_eq_of_cover 4 _ (fun t _ => flushed_eq m c t) cover

/-- The run, read: every weakly fair execution ends with the result array at kerOut of the arguments and the
    arguments as launched. -/
theorem run : θ_run defs (onTc (τ := τ) (main (F := Ideal))) ⟨m, fun _ => 0, ρ⟩ fun r => ∀ c : Dev nD,
      r.2.mem ((c : Thread nD τ).loc main_v14)
        = kerOut (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Cert.KernelIdeal.Value.run_blocks m ρ)

end Cert.Gauss.Kernel

end
-- ==== Proof.GaussRef.lean ====
/-
  The reference program computes, at every point p and centre j,

      exp(-1/2 · ((Σ_k x[p,k]² · ic[j,k]  -  2 · Σ_k x[p,k] · (mu[j,k] · ic[j,k]))  +  (0 + Σ_k mu[j,k]² · ic[j,k]))),

  with ic = 1 / cov. This module reads the reference's result one operation at a time at an index and identifies
  it with that expression: the composed index functions of its contractions, reshape, reduction and broadcasts are
  the coordinate constructors, and after these identifications the two sides coincide term by term.
-/
import proofs.«118681_j65034394796366_2_alg».proof.Proof.Gen.ReferenceIdeal.Read
import proofs.«118681_j65034394796366_2_alg».proof.Proof.GaussSpec
import Idealize.ShloMosaic.Lib.ValueIdx

noncomputable section

open scoped BigOperators

namespace Cert.Gauss

open Idealize.ShloMosaic Idealize.ShloMosaic.ValueIdx Cert.ReferenceIdeal Cert.ReferenceIdeal.Read

variable [Cert.ReferenceIdeal.Facts]

/-! ## The composed index functions are the coordinate constructors -/

/-- The first contraction reads its left operand at (p, k) … -/
theorem lidx4_eq (p : Fin 65536) (j : Fin 1024) (k : Fin 256) :
    lidx_main_v4 (ix2 p j) k = ix2 p k :=
  funext fun a => Fin.ext (by match a with | ⟨0, _⟩ => rfl | ⟨1, _⟩ => rfl)

/-- … and its right operand at (j, k). -/
theorem ridx4_eq (p : Fin 65536) (j : Fin 1024) (k : Fin 256) :
    ridx_main_v4 (ix2 p j) k = ix2 j k :=
  funext fun a => Fin.ext (by match a with | ⟨0, _⟩ => rfl | ⟨1, _⟩ => rfl)

/-- The second contraction reads its left operand at (p, k) … -/
theorem lidx6_eq (p : Fin 65536) (j : Fin 1024) (k : Fin 256) :
    lidx_main_v6 (ix2 p j) k = ix2 p k :=
  funext fun a => Fin.ext (by match a with | ⟨0, _⟩ => rfl | ⟨1, _⟩ => rfl)

/-- … and its right operand at (j, k). -/
theorem ridx6_eq (p : Fin 65536) (j : Fin 1024) (k : Fin 256) :
    ridx_main_v6 (ix2 p j) k = ix2 j k :=
  funext fun a => Fin.ext (by match a with | ⟨0, _⟩ => rfl | ⟨1, _⟩ => rfl)

/-- The row sum over the features reads its operand at (j, k). -/
theorem idx9_eq (j : Fin 1024) (k : Fin 256) :
    idx_main_v9 (ix1 j) k = ix2 j k :=
  funext fun a => Fin.ext (by match a with | ⟨0, _⟩ => rfl | ⟨1, _⟩ => rfl)

/-- The reshape [M, 1, D] → [M, D] reads (j, 0, k) at (j, k): (j · 256 + k) / 256 = j and (j · 256 + k) % 256 = k. -/
theorem idx2_eq (j : Fin 1024) (k : Fin 256) :
    idx_main_v2 (ix2 j k) = ix3 j (0 : Fin 1) k :=
  funext fun a => Fin.ext (by
    have hj : j.val < 1024 := j.isLt
    have hk : k.val < 256 := k.isLt
    match a with
    | ⟨0, _⟩ => show (j.val * 256 + k.val) / 256 = j.val; omega
    | ⟨1, _⟩ => rfl
    | ⟨2, _⟩ => show (j.val * 256 + k.val) % 256 = k.val; omega)

/-- The two broadcasts [M] → [1, M] → [N, M] read the centre's term at j. -/
theorem idx13_14_eq (p : Fin 65536) (j : Fin 1024) :
    idx_main_v13 (idx_main_v14 (ix2 p j)) = ix1 j :=
  funext fun a => Fin.ext (by match a with | ⟨0, _⟩ => rfl)

/-- The reference's result at the point p and the centre j: every operation read at its index, the index functions
    replaced by the coordinate constructors, the float operations by the extended reals'. What is left is the stated
    arrangement, term for term. -/
theorem ref_at (x0 : FVec Ideal Cert.ReferenceIdeal.S65536x256 .f32) (x1 : FVec Ideal Cert.ReferenceIdeal.S1024x1x256 .f32)
    (x2 : FVec Ideal Cert.ReferenceIdeal.S1024x256 .f32) (p : Fin 65536) (j : Fin 1024) :
    Cert.ReferenceIdeal.Read.val_main_v18 (F := Ideal) x0 x1 x2 (ix2 p j) = refOut x0 x1 x2 (ix2 p j) := by
  simp only [val_main_v18_apply, val_main_v17_apply, val_main_v16_apply, val_main_cst_2_apply, val_main_v15_apply,
    val_main_v12_apply, val_main_v4_apply, val_main_v3_apply, val_main_v1_apply, val_main_v0_apply, val_main_cst_apply,
    val_main_v11_apply, val_main_v10_apply, val_main_cst_1_apply, val_main_v6_apply, val_main_v5_apply, val_main_v2_apply,
    val_main_v14_apply, val_main_v13_apply, val_main_v9_apply, val_main_cst_0_apply, val_main_v8_apply, val_main_v7_apply,
    lidx4_eq, ridx4_eq, lidx6_eq, ridx6_eq, idx13_14_eq, idx9_eq, idx2_eq,
    Ideal.mulf_def, Ideal.addf_def, Ideal.subf_def, Ideal.hostDivf_def, Ideal.ofBits_def, Ideal.hostUnary_exp_def]
  rfl

/-- THE REFERENCE'S RESULT is the stated arrangement, index by index. -/
theorem ref_eq (x0 : FVec Ideal Cert.ReferenceIdeal.S65536x256 .f32) (x1 : FVec Ideal Cert.ReferenceIdeal.S1024x1x256 .f32)
    (x2 : FVec Ideal Cert.ReferenceIdeal.S1024x256 .f32) :
    Cert.ReferenceIdeal.Read.val_main_v18 (F := Ideal) x0 x1 x2 = refOut x0 x1 x2 := by
  funext i
  obtain ⟨p, j, rfl⟩ : ∃ (p : Fin 65536) (j : Fin 1024), i = ix2 p j := ⟨i 0, i 1, eq_ix2 i⟩
  exact ref_at x0 x1 x2 p j

end Cert.Gauss

end
-- ==== Proof.LibRealValued.lean ====
/-
  Real-valued arrays on the extended reals.

  At the ideal reading a float is an extended real, and the laws that join two arrangements of one
  computation (a factor moved across a sum, a variance computed two ways) hold for REAL entries only.
  A precondition says that the INPUTS are real; this module carries that fact through the host
  operations of a program, so that an intermediate array — a normalised adjacency, a propagated
  embedding, a projected feature matrix — is known to be real without ever being read at an index.

  * `IsReal x`, `IsNonneg x`, `IsPos x`: the extended real `x` is (the coercion of) a real, a real `≥ 0`,
    a real `> 0`; closed under `+`, `-`, `*`, `max`, finite sums, the quotient by a nonzero real; a
    nonnegative plus a positive is positive; the reciprocal square root of a positive is positive.
  * `AllReal v`, `AllNonneg v`, `AllPos v`: every entry is. Preserved by re-indexing (hence by
    `gather`, `broadcast_in_dim`, `slice`, `reshape`), by `pad`, by the pointwise operations, by the host's
    accumulating scatter (the exact sum of the colliding updates), by `dot_general` and by a float sum.
  * `AllReal.exists_real`: a real-valued array IS the coercion of an array of reals.
-/
import Idealize.ShloMosaic.PureOps.Ideal
import Idealize.ShloMosaic.PureOps.Contract
import Mathlib.Tactic

noncomputable section

namespace Cert.Lib.RealValued

open Idealize.ShloMosaic

/-! ## One extended real -/

/-- `x` is a real number. -/
def IsReal (x : EReal) : Prop := ∃ r : ℝ, x = (r : EReal)
/-- `x` is a real number `≥ 0`. -/
def IsNonneg (x : EReal) : Prop := ∃ r : ℝ, 0 ≤ r ∧ x = (r : EReal)
/-- `x` is a real number `> 0`. -/
def IsPos (x : EReal) : Prop := ∃ r : ℝ, 0 < r ∧ x = (r : EReal)

theorem IsPos.isNonneg {x : EReal} (h : IsPos x) : IsNonneg x := let ⟨r, hr, e⟩ := h; ⟨r, hr.le, e⟩
theorem IsNonneg.isReal {x : EReal} (h : IsNonneg x) : IsReal x := let ⟨r, _, e⟩ := h; ⟨r, e⟩
theorem IsPos.isReal {x : EReal} (h : IsPos x) : IsReal x := h.isNonneg.isReal

namespace IsReal

theorem coe (r : ℝ) : IsReal (r : EReal) := ⟨r, rfl⟩
theorem zero : IsReal (0 : EReal) := ⟨0, EReal.coe_zero.symm⟩
theorem one : IsReal (1 : EReal) := ⟨1, EReal.coe_one.symm⟩

theorem add {x y : EReal} (hx : IsReal x) (hy : IsReal y) : IsReal (x + y) := by
  obtain ⟨a, rfl⟩ := hx; obtain ⟨b, rfl⟩ := hy; exact ⟨a + b, (EReal.coe_add a b).symm⟩
theorem sub {x y : EReal} (hx : IsReal x) (hy : IsReal y) : IsReal (x - y) := by
  obtain ⟨a, rfl⟩ := hx; obtain ⟨b, rfl⟩ := hy; exact ⟨a - b, (EReal.coe_sub a b).symm⟩
theorem mul {x y : EReal} (hx : IsReal x) (hy : IsReal y) : IsReal (x * y) := by
  obtain ⟨a, rfl⟩ := hx; obtain ⟨b, rfl⟩ := hy; exact ⟨a * b, (EReal.coe_mul a b).symm⟩
theorem neg {x : EReal} (hx : IsReal x) : IsReal (-x) := by
  obtain ⟨a, rfl⟩ := hx; exact ⟨-a, (EReal.coe_neg a).symm⟩
theorem max {x y : EReal} (hx : IsReal x) (hy : IsReal y) : IsReal (max x y) := by
  obtain ⟨a, rfl⟩ := hx; obtain ⟨b, rfl⟩ := hy
  exact ⟨Max.max a b, (EReal.coe_strictMono.monotone.map_max (a := a) (b := b)).symm⟩

/-- A finite sum of reals is a real. -/
theorem sum {ι : Type*} (s : Finset ι) (f : ι → EReal) (h : ∀ i ∈ s, IsReal (f i)) : IsReal (∑ i ∈ s, f i) := by
  classical
  induction s using Finset.induction_on with
  | empty => rw [Finset.sum_empty]; exact zero
  | insert a s ha ih =>
    rw [Finset.sum_insert ha]
    exact (h a (Finset.mem_insert_self a s)).add (ih fun i hi => h i (Finset.mem_insert_of_mem hi))

/-- The quotient of a real by a nonzero real constant is a real. -/
theorem div_coe {x : EReal} (hx : IsReal x) {n : ℝ} (hn : n ≠ 0) : IsReal (Ideal.div x (n : EReal)) := by
  rw [Ideal.div_coe hn]; exact hx.mul (coe _)

theorem ne_top {x : EReal} (hx : IsReal x) : x ≠ ⊤ := by obtain ⟨a, rfl⟩ := hx; exact EReal.coe_ne_top a
theorem ne_bot {x : EReal} (hx : IsReal x) : x ≠ ⊥ := by obtain ⟨a, rfl⟩ := hx; exact EReal.coe_ne_bot a

end IsReal

namespace IsNonneg

theorem zero : IsNonneg (0 : EReal) := ⟨0, le_rfl, EReal.coe_zero.symm⟩
theorem add {x y : EReal} (hx : IsNonneg x) (hy : IsNonneg y) : IsNonneg (x + y) := by
  obtain ⟨a, ha, rfl⟩ := hx; obtain ⟨b, hb, rfl⟩ := hy; exact ⟨a + b, add_nonneg ha hb, (EReal.coe_add a b).symm⟩
theorem mul {x y : EReal} (hx : IsNonneg x) (hy : IsNonneg y) : IsNonneg (x * y) := by
  obtain ⟨a, ha, rfl⟩ := hx; obtain ⟨b, hb, rfl⟩ := hy; exact ⟨a * b, mul_nonneg ha hb, (EReal.coe_mul a b).symm⟩
/-- A nonnegative real plus a positive one is positive (a degree count plus the self loop). -/
theorem add_pos {x y : EReal} (hx : IsNonneg x) (hy : IsPos y) : IsPos (x + y) := by
  obtain ⟨a, ha, rfl⟩ := hx; obtain ⟨b, hb, rfl⟩ := hy
  exact ⟨a + b, add_pos_of_nonneg_of_pos ha hb, (EReal.coe_add a b).symm⟩
theorem sum {ι : Type*} (s : Finset ι) (f : ι → EReal) (h : ∀ i ∈ s, IsNonneg (f i)) : IsNonneg (∑ i ∈ s, f i) := by
  classical
  induction s using Finset.induction_on with
  | empty => rw [Finset.sum_empty]; exact zero
  | insert a s ha ih =>
    rw [Finset.sum_insert ha]
    exact (h a (Finset.mem_insert_self a s)).add (ih fun i hi => h i (Finset.mem_insert_of_mem hi))

end IsNonneg

namespace IsPos

theorem one : IsPos (1 : EReal) := ⟨1, one_pos, EReal.coe_one.symm⟩
theorem mul {x y : EReal} (hx : IsPos x) (hy : IsPos y) : IsPos (x * y) := by
  obtain ⟨a, ha, rfl⟩ := hx; obtain ⟨b, hb, rfl⟩ := hy; exact ⟨a * b, mul_pos ha hb, (EReal.coe_mul a b).symm⟩
/-- The reciprocal square root of a positive real is a positive real (no corner of `rsqrt` is met). -/
theorem rsqrt {x : EReal} (hx : IsPos x) : IsPos (Ideal.rsqrt x) := by
  obtain ⟨r, hr, rfl⟩ := hx
  rw [Ideal.rsqrt_coe, if_neg (not_lt.2 hr.le), if_neg hr.ne']
  exact ⟨_, inv_pos.2 (Real.sqrt_pos.2 hr), rfl⟩

end IsPos

/-! ## Arrays -/

/-- Every entry is a real. -/
def AllReal {ι : Type*} (v : ι → EReal) : Prop := ∀ i, IsReal (v i)
/-- Every entry is a real `≥ 0`. -/
def AllNonneg {ι : Type*} (v : ι → EReal) : Prop := ∀ i, IsNonneg (v i)
/-- Every entry is a real `> 0`. -/
def AllPos {ι : Type*} (v : ι → EReal) : Prop := ∀ i, IsPos (v i)

theorem AllPos.allNonneg {ι : Type*} {v : ι → EReal} (h : AllPos v) : AllNonneg v := fun i => (h i).isNonneg
theorem AllNonneg.allReal {ι : Type*} {v : ι → EReal} (h : AllNonneg v) : AllReal v := fun i => (h i).isReal
theorem AllPos.allReal {ι : Type*} {v : ι → EReal} (h : AllPos v) : AllReal v := fun i => (h i).isReal

/-- A real-valued array is the coercion of an array of reals. -/
theorem AllReal.exists_real {ι : Type*} {v : ι → EReal} (h : AllReal v) : ∃ r : ι → ℝ, v = fun i => (r i : EReal) :=
  ⟨fun i => (h i).choose, funext fun i => (h i).choose_spec⟩

/-- Any re-indexing of a real-valued array is real-valued. -/
theorem AllReal.reindex {ι κ : Type*} {v : ι → EReal} (h : AllReal v) (g : κ → ι) : AllReal (fun j => v (g j)) :=
  fun j => h (g j)
theorem AllNonneg.reindex {ι κ : Type*} {v : ι → EReal} (h : AllNonneg v) (g : κ → ι) : AllNonneg (fun j => v (g j)) :=
  fun j => h (g j)
theorem AllPos.reindex {ι κ : Type*} {v : ι → EReal} (h : AllPos v) (g : κ → ι) : AllPos (fun j => v (g j)) :=
  fun j => h (g j)

section Ops

variable {s t : Shape} {φ : FTy}

/-! ### Pointwise operations -/

theorem AllReal.addf {x y : FVec Ideal s φ} (hx : AllReal x) (hy : AllReal y) : AllReal (addf x y) :=
  fun i => (hx i).add (hy i)
theorem AllReal.subf {x y : FVec Ideal s φ} (hx : AllReal x) (hy : AllReal y) : AllReal (subf x y) :=
  fun i => (hx i).sub (hy i)
theorem AllReal.mulf {x y : FVec Ideal s φ} (hx : AllReal x) (hy : AllReal y) : AllReal (mulf x y) :=
  fun i => (hx i).mul (hy i)
theorem AllReal.maximumf {x y : FVec Ideal s φ} (hx : AllReal x) (hy : AllReal y) : AllReal (maximumf x y) :=
  fun i => (hx i).max (hy i)
theorem AllNonneg.add_pos {x y : FVec Ideal s φ} (hx : AllNonneg x) (hy : AllPos y) : AllPos (Idealize.ShloMosaic.addf x y) :=
  fun i => (hx i).add_pos (hy i)
theorem AllPos.mulf {x y : FVec Ideal s φ} (hx : AllPos x) (hy : AllPos y) : AllPos (Idealize.ShloMosaic.mulf x y) :=
  fun i => (hx i).mul (hy i)
/-- The host's reciprocal square root of a positive array is positive. -/
theorem AllPos.hostRsqrt {x : FVec Ideal s φ} (hx : AllPos x) : AllPos (Host.rsqrt x) :=
  fun i => (hx i).rsqrt
/-- The host's quotient by a splat nonzero real constant. -/
theorem AllReal.hostDivf_const {x y : FVec Ideal s φ} (hx : AllReal x) {n : ℝ} (hn : n ≠ 0) (hy : ∀ i, y i = (n : EReal)) :
    AllReal (Host.divf x y) :=
  fun i => by
    show IsReal (Ideal.div (x i) (y i))
    rw [hy i]; exact (hx i).div_coe hn

/-! ### Layout operations -/

theorem AllReal.broadcastInDim {x : s.Idx → EReal} (hx : AllReal x) (dims : Fin s.rank → Fin t.rank)
    (h : s.BroadcastsInDim t dims) : AllReal (broadcastInDim t dims h x) := fun _ => hx _
theorem AllPos.broadcastInDim {x : s.Idx → EReal} (hx : AllPos x) (dims : Fin s.rank → Fin t.rank)
    (h : s.BroadcastsInDim t dims) : AllPos (Idealize.ShloMosaic.broadcastInDim t dims h x) := fun _ => hx _
theorem AllReal.extractStridedSlice {x : s.Idx → EReal} (hx : AllReal x) (off : Fin s.rank → Nat) (h : s.Slices off t) :
    AllReal (extractStridedSlice t off x h) := fun _ => hx _
theorem AllReal.shapeCast {x : s.Idx → EReal} (hx : AllReal x) (h : s.ShapeCasts t) :
    AllReal (shapeCast t x h) := fun _ => hx _
/-- A padded array is real-valued when the array and the padding value are. -/
theorem AllReal.pad {x : s.Idx → EReal} (hx : AllReal x) (lo hi interior : Fin s.rank → Nat) {u : Shape} {v : u.Idx → EReal}
    (hv : AllReal v) (h : s.Pads lo hi interior t) (hu : 0 < u.numel) : AllReal (pad t lo hi interior x v h hu) := fun j => by
  unfold Idealize.ShloMosaic.pad
  split_ifs
  · exact hx _
  · exact hv _

/-! ### Gather, scatter-add, contraction, sum -/

/-- A gather reads entries of its operand. -/
theorem AllReal.gather {si : Shape} {w : Nat} {x : s.Idx → EReal} (hx : AllReal x) (d : GatherDims s si t) (idx : IVec si w) :
    AllReal (Host.gather d x idx) := fun _ => hx _
theorem AllPos.gather {si : Shape} {w : Nat} {x : s.Idx → EReal} (hx : AllPos x) (d : GatherDims s si t) (idx : IVec si w) :
    AllPos (Host.gather d x idx) := fun _ => hx _

/-- The host's accumulating scatter at the ideal reading is each operand entry plus the exact sum of the updates
    landing on it: real-valued when operand and updates are, wherever the indices point. -/
theorem AllReal.scatterAdd {si u : Shape} {w : Nat} (d : ScatterDims s si u) {x : FVec Ideal s φ} (hx : AllReal x)
    (idx : IVec si w) {upd : FVec Ideal u φ} (hu : AllReal upd) : AllReal (Host.scatterAdd d x idx upd) := fun i => by
  show IsReal (x i + ∑ j ∈ Finset.univ.filter (fun j => d.resultIdx? j idx = some i), upd j)
  exact (hx i).add (IsReal.sum _ _ fun j _ => hu j)
/-- … and nonnegative when both are (a degree count). -/
theorem AllNonneg.scatterAdd {si u : Shape} {w : Nat} (d : ScatterDims s si u) {x : FVec Ideal s φ} (hx : AllNonneg x)
    (idx : IVec si w) {upd : FVec Ideal u φ} (hu : AllNonneg upd) : AllNonneg (Host.scatterAdd d x idx upd) := fun i => by
  show IsNonneg (x i + ∑ j ∈ Finset.univ.filter (fun j => d.resultIdx? j idx = some i), upd j)
  exact (hx i).add (IsNonneg.sum _ _ fun j _ => hu j)

/-- The host's `dot_general` of real-valued operands is real-valued: a finite sum of products. -/
theorem AllReal.dotGeneral {sl sr so : Shape} {φ₁ φ₂ : FTy} (d : DotDims sl sr so) (prec : Option ContractPrecision)
    {l : FVec Ideal sl φ₁} (hl : AllReal l) {r : FVec Ideal sr φ₂} (hr : AllReal r) :
    AllReal (Host.dotGeneral d prec l r) := fun j => by
  show IsReal ((0 : EReal) + ∑ k : d.contr.Idx, l (d.lhsIdx j k) * r (d.rhsIdx j k))
  exact IsReal.zero.add (IsReal.sum _ _ fun k _ => (hl _).mul (hr _))

/-- The host's float sum of a real-valued array from a real initial value is real-valued. -/
theorem AllReal.reduceAdd {axes : List (Fin s.rank)} {u : Shape} {x : FVec Ideal s φ} (hx : AllReal x)
    {init : u.Idx → Ideal φ} (hi : AllReal init) (h : s.ReducesTo axes t) (hu : 0 < u.numel) :
    AllReal (Host.reduceAdd x init h hu) := fun j => by
  show IsReal (init (Shape.Idx.first hu) + ∑ i ∈ Finset.univ.filter (fun i => h.drop i = j), x i)
  exact (hi _).add (IsReal.sum _ _ fun i _ => hx i)

end Ops

end Cert.Lib.RealValued

end
-- ==== Proof.GaussAlgebra.lean ====
/-
  The two arrangements of the diagonal Gaussian quadratic form agree on real entries with nonzero variances.

  Write ic = 1 / cov. The reference forms

      (Σ_k x² · ic  -  2 · Σ_k x · (mu · ic))  +  (0 + Σ_k mu² · ic)

  and the kernel forms

      (((Σ_k x² · ic  +  Σ_k (x² - x²) · ic)  +  Σ_k x · ((-2 · mu) · ic))  +  Σ_k (x - x) · ((-2 · mu) · ic))
        +  (0 + Σ_k mu² · ic).

  On the extended reals a - a = 0 holds for a REAL a only (∞ - ∞ is not 0), and 0 · y = 0 holds for every y.
  So, when every x[p,k] is real, the two remainder contractions are sums of zeros and vanish. When moreover
  cov[j,k] is a nonzero real c, the quotient 1 / c is the real number 1/c, so every summand that is left is
  (the coercion of) a real number, a finite sum of coercions is the coercion of the real sum, and what remains
  is an identity of real numbers:

      Σ_k x · ((-2 · mu) · ic)  =  -(2 · Σ_k x · (mu · ic)),      a + (-b) = a - b.

  The centre's own term 0 + Σ_k mu² · ic is the same expression on both sides and is never evaluated.
  The pointwise exponential of -1/2 times the quadratic form then agrees index by index.
-/
import proofs.«118681_j65034394796366_2_alg».proof.Proof.GaussSpec
import proofs.«118681_j65034394796366_2_alg».proof.Proof.LibRealValued

noncomputable section

open scoped BigOperators

namespace Cert.Gauss

open Idealize.ShloMosaic Idealize.ShloMosaic.ValueIdx Cert.Lib.RealValued

/-! ## The literals 1, 2 and -2 -/

/-- The pattern 0x3F800000 denotes the real 1. -/
theorem one_eq : one = ((1 : ℝ) : EReal) := by
  simp [one, Ideal.ofBits, Ideal.ieee, -EReal.coe_mul]; norm_num

/-- The pattern 0x40000000 denotes the real 2. -/
theorem two_eq : two = ((2 : ℝ) : EReal) := by
  simp [two, Ideal.ofBits, Ideal.ieee, -EReal.coe_mul]; norm_num

/-- The pattern 0xC0000000 denotes the real -2. -/
theorem negTwo_eq : negTwo = ((-2 : ℝ) : EReal) := by
  simp [negTwo, Ideal.ofBits, Ideal.ieee, -EReal.coe_mul]; norm_num

/-! ## Coercions and finite sums -/

/-- The coercion of a finite real sum is the sum of the coercions. -/
theorem coe_sum {ι : Type*} (s : Finset ι) (f : ι → ℝ) :
    ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- The reciprocal of a nonzero real variance is the real reciprocal. -/
theorem div_one_coe {c : ℝ} (hc : c ≠ 0) : Ideal.div one (c : EReal) = ((1 / c : ℝ) : EReal) := by
  rw [Ideal.div_coe hc, one_eq, ← EReal.coe_mul, one_mul]

/-- A real minus itself is zero, so its product with any extended real is zero. -/
theorem coe_sub_self_mul (a : ℝ) (y : EReal) : ((a : EReal) - (a : EReal)) * y = 0 := by
  rw [← EReal.coe_sub, sub_self, EReal.coe_zero, zero_mul]

/-! ## The four contractions over real witnesses -/

section Real

variable (xr mr ir : Fin 256 → ℝ)

/-- The remainder contraction of the squares vanishes. -/
theorem rem_sq_eq_zero :
    (∑ k : Fin 256, (((xr k : EReal) * (xr k : EReal)) - ((xr k : EReal) * (xr k : EReal))) * (ir k : EReal)) = 0 := by
  apply Finset.sum_eq_zero
  intro k _
  rw [← EReal.coe_mul]
  exact coe_sub_self_mul _ _

/-- The remainder contraction of the cross term vanishes. -/
theorem rem_cross_eq_zero (y : Fin 256 → EReal) :
    (∑ k : Fin 256, ((xr k : EReal) - (xr k : EReal)) * y k) = 0 :=
  Finset.sum_eq_zero fun k _ => coe_sub_self_mul _ _

/-- The contraction of the squares is the coercion of the real sum. -/
theorem sq_eq_coe :
    (∑ k : Fin 256, ((xr k : EReal) * (xr k : EReal)) * (ir k : EReal))
      = ((∑ k : Fin 256, (xr k * xr k) * ir k : ℝ) : EReal) := by
  rw [coe_sum]
  exact Finset.sum_congr rfl fun k _ => by rw [EReal.coe_mul, EReal.coe_mul]

/-- The kernel's cross contraction, with the factor -2 inside, is the coercion of -(2 · Σ x · (mu · ic)). -/
theorem kerCross_eq_coe :
    (∑ k : Fin 256, (xr k : EReal) * ((negTwo * (mr k : EReal)) * (ir k : EReal)))
      = ((-(2 * ∑ k : Fin 256, xr k * (mr k * ir k)) : ℝ) : EReal) := by
  rw [Finset.mul_sum, ← Finset.sum_neg_distrib, coe_sum]
  refine Finset.sum_congr rfl fun k _ => ?_
  rw [negTwo_eq, ← EReal.coe_mul, ← EReal.coe_mul, ← EReal.coe_mul]
  congr 1
  ring

/-- The reference's cross contraction, with the factor 2 outside, is the coercion of 2 · Σ x · (mu · ic). -/
theorem refCross_eq_coe :
    two * (∑ k : Fin 256, (xr k : EReal) * ((mr k : EReal) * (ir k : EReal)))
      = ((2 * ∑ k : Fin 256, xr k * (mr k * ir k) : ℝ) : EReal) := by
  rw [two_eq, EReal.coe_mul, coe_sum]
  congr 1

end Real

/-! ## The quadratic form -/

theorem kerQuad_eq_refQuad (x : SX.Idx → EReal) (mu : SMu.Idx → EReal) (cov : SCov.Idx → EReal) (p : Fin 65536) (j : Fin 1024)
    (hx : ∀ k, IsReal (xAt x p k)) (hmu : ∀ k, IsReal (muAt mu j k))
    (hc : ∀ k, IsReal (cov (ix2 j k))) (hc0 : ∀ k, cov (ix2 j k) ≠ 0) :
    kerQuad x mu cov p j = refQuad x mu cov p j := by
  choose xr hxr using hx
  choose mr hmr using hmu
  choose cr hcr using hc
  have hcr0 : ∀ k, cr k ≠ 0 := fun k h => hc0 k (by rw [hcr k, h, EReal.coe_zero])
  have hic : ∀ k, ic cov j k = ((1 / cr k : ℝ) : EReal) := fun k => by
    unfold ic; rw [hcr k, div_one_coe (hcr0 k)]
  unfold kerQuad refQuad
  congr 1
  simp only [hxr, hmr, hic]
  rw [rem_sq_eq_zero, rem_cross_eq_zero, add_zero, add_zero, sq_eq_coe, kerCross_eq_coe, refCross_eq_coe,
    ← EReal.coe_add, ← EReal.coe_sub, sub_eq_add_neg]

/-! ## The affinities -/

theorem kerOut_eq_refOut (x : SX.Idx → EReal) (mu : SMu.Idx → EReal) (cov : SCov.Idx → EReal)
    (hx : AllReal x) (hmu : AllReal mu) (hc : AllReal cov) (hc0 : ∀ i, cov i ≠ 0) :
    kerOut x mu cov = refOut x mu cov := by
  funext i
  unfold kerOut refOut
  rw [kerQuad_eq_refQuad x mu cov (i 0) (i 1) (fun k => hx (ix2 (i 0) k)) (fun k => hmu (ix3 (i 1) 0 k))
    (fun k => hc (ix2 (i 1) k)) (fun k => hc0 (ix2 (i 1) k))]

end Cert.Gauss

end
-- ==== Proof.LibFiniteTest.lean ====
/-
  The precondition "every float input is finite", read back.

  A precondition `jnp.all(jnp.abs(x) < inf)` prints as: the absolute value of the array, compared `<`
  entry by entry with the splat of the pattern of `+∞`, the `i1` results reduced by `and` from `1` over
  all axes. At the ideal reading `|x| = max x (−x)`, the pattern `0x7F800000` denotes `⊤`, and `max x (−x) < ⊤`
  holds exactly of the real numbers (for `⊥` the maximum is `⊤` too). So a test that came out `1` says
  every entry is a real.

  * `ofBits_inf`            the f32 pattern `0x7F800000` denotes `⊤`;
  * `lt_of_cmp_olt`         an ordered `<` comparison that answered `1` is the order's `<`;
  * `isReal_of_abs_lt_top`  `max x (−x) < ⊤` makes `x` a real;
  * `isReal_of_test`        one entry's printed test;
  * `allReal_of_all`        the whole printed conjunct: `jnp.all(jnp.abs(x) < inf) = 1` makes `x` real-valued.
-/
import Idealize.ShloMosaic.Lib.ReduceAll
import Idealize.ShloMosaic.PureOps.Ideal
import proofs.«118681_j65034394796366_2_alg».proof.Proof.LibRealValued

noncomputable section

namespace Cert.Lib.FiniteTest

open Idealize.ShloMosaic Cert.Lib.RealValued

/-- The f32 pattern of `+∞` denotes `⊤`. -/
theorem ofBits_inf : Ideal.ofBits .f32 0x7F800000#32 = (⊤ : EReal) := by
  simp [Ideal.ofBits, Ideal.ieee]

/-- An ordered `<` that answered `1` is `<`. -/
theorem lt_of_cmp_olt {a b : EReal} (h : Ideal.cmp .olt a b = 1#1) : a < b := by
  unfold Ideal.cmp at h
  by_contra hn
  simp [hn] at h

/-- An extended real whose absolute value is below `⊤` is a real. -/
theorem isReal_of_abs_lt_top {x : EReal} (h : max x (-x) < ⊤) : IsReal x := by
  induction x using EReal.rec with
  | bot => simp at h
  | coe r => exact ⟨r, rfl⟩
  | top => simp at h

/-- One entry's test, as printed: `|x| < +∞` answered `1`. -/
theorem isReal_of_test {x : EReal}
    (h : Ideal.cmp .olt (max x (-x)) (Ideal.ofBits .f32 0x7F800000#32) = 1#1) : IsReal x := by
  rw [ofBits_inf] at h
  exact isReal_of_abs_lt_top (lt_of_cmp_olt h)

/-- The printed conjunct of one input: the `and`-reduction over all axes of `|x| < +∞` (the bound a splat of the
    pattern of `+∞` from any constant shape) is `1`; then every entry of `x` is a real. -/
theorem allReal_of_all {s t u c : Shape} [Subsingleton t.Idx] {axes : List (Fin s.rank)} (x : FVec Ideal s .f32)
    (init : u.Idx → BitVec 1) (h : s.ReducesTo axes t) (hu : 0 < u.numel)
    (dims : Fin c.rank → Fin s.rank) (hb : c.BroadcastsInDim s dims) (j : t.Idx)
    (e : Host.reduce IntOp.andi (cmpf .olt (Host.absf x) (broadcastInDim s dims hb (constant c .f32 0x7F800000#32))) init h hu j = 1#1) :
    AllReal x := fun i =>
  isReal_of_test (Host.reduce_andi_all _ init h hu j e i)

end Cert.Lib.FiniteTest

end
-- ==== Proof.LibNonzeroTest.lean ====
/-
  The precondition "no entry is zero", read back.

  A precondition `jnp.all(v != 0.0)` prints as: the array compared entry by entry, by "unordered or not equal", with
  the splat of the pattern `0x00000000`, the `i1` results reduced by `and` from `1` over all axes. At the ideal
  reading nothing is unordered, so the comparison is `≠` on the extended reals, and the pattern denotes `0`. So a
  test that came out `1` says every entry is nonzero — what a program that divides by the array needs of it.

  * `ne_of_cmp_une`     an "unordered or not equal" comparison that answered `1` is `≠`;
  * `ne_zero_of_test`   one entry's printed test `v ≠ 0.0`;
  * `ne_zero_of_all`    the whole printed conjunct: `jnp.all(v != 0.0) = 1` makes every entry of `v` nonzero.
-/
import Idealize.ShloMosaic.Lib.ReduceAll
import Idealize.ShloMosaic.PureOps.Ideal
import Idealize.ShloMosaic.PureOps.Ideal.Laws

noncomputable section

namespace Cert.Lib.NonzeroTest

open Idealize.ShloMosaic

/-- An "unordered or not equal" comparison that answered `1` is `≠`. -/
theorem ne_of_cmp_une {a b : EReal} (h : Ideal.cmp .une a b = 1#1) : a ≠ b := by
  unfold Ideal.cmp at h
  intro hab
  simp [hab] at h

/-- One entry's test, as printed: `v ≠ 0.0` answered `1` (the pattern `0x00000000` denotes `0`). -/
theorem ne_zero_of_test {v : EReal}
    (h : Ideal.cmp .une v (Ideal.ofBits .f32 0x00000000#32) = 1#1) : v ≠ 0 := by
  rw [Ideal.ofBits_zero_f32] at h
  exact ne_of_cmp_une h

/-- The printed conjunct `all(v ≠ 0.0)`: the `and`-reduction over all axes of the comparison of `v` with a splat
    of the pattern of `0` (from any constant shape) is `1`; then every entry of `v` is nonzero. -/
theorem ne_zero_of_all {s t u c : Shape} [Subsingleton t.Idx] {axes : List (Fin s.rank)} (v : FVec Ideal s .f32)
    (init : u.Idx → BitVec 1) (h : s.ReducesTo axes t) (hu : 0 < u.numel)
    (dims : Fin c.rank → Fin s.rank) (hb : c.BroadcastsInDim s dims) (j : t.Idx)
    (e : Host.reduce IntOp.andi (cmpf .une v (broadcastInDim s dims hb (constant c .f32 0x00000000#32))) init h hu j = 1#1) :
    ∀ i, v i ≠ 0 := fun i =>
  ne_zero_of_test (Host.reduce_andi_all _ init h hu j e i)

end Cert.Lib.NonzeroTest

end
-- ==== Proof.GaussPre.lean ====
/-
  The precondition of the Gaussian affinity, read back.

  The printed precondition is the conjunction

      all(|x| < +∞)  ∧  all(|mu| < +∞)  ∧  all(|cov| < +∞)  ∧  all(cov ≠ 0),

  each conjunct an entry-by-entry comparison whose `i1` results are reduced by `and` from `1` over all
  axes, the four results joined by `and`. An `and` of `i1` words is `1` exactly when both words are, so
  the claim "the precondition is `1`" splits into its four conjuncts. The first three say that every entry
  of `x`, `mu`, `cov` is a real number (an extended real `v` with `max v (−v) < ⊤` is neither `⊤` nor `⊥`).
  The fourth compares each variance with the splat of the pattern `0x00000000`, which denotes `0`, by
  "unordered or not equal", which on the extended reals is `≠`: every variance is nonzero.

  * `reads_of_pre`      the precondition: `x`, `mu`, `cov` are real-valued and `cov` is nowhere `0`
                        (the finite conjuncts and the nonzero conjunct each by its general read-back lemma).
-/
import proofs.«118681_j65034394796366_2_alg».proof.Pre_finite_inputs
import proofs.«118681_j65034394796366_2_alg».proof.Proof.LibFiniteTest
import proofs.«118681_j65034394796366_2_alg».proof.Proof.LibRealValued
import proofs.«118681_j65034394796366_2_alg».proof.Proof.LibNonzeroTest
import Idealize.ShloMosaic.Lib.ReduceAll
import Idealize.ShloMosaic.Lib.ValueIdx
import Idealize.ShloMosaic.PureOps.Ideal.Laws

noncomputable section

namespace Cert.Gauss

open Idealize.ShloMosaic

/-- The rank-0 shape has one index. -/
instance subsingleton_scalar_idx : Subsingleton Cert.Pre_finite_inputs.S_.Idx :=
  ⟨fun _ _ => funext fun d => d.elim0⟩

/-- The precondition, read back: if it answers `1` then `x`, `mu` and `cov` are real-valued and no variance is `0`. -/
theorem reads_of_pre [Cert.Pre_finite_inputs.Facts]
    (x : FVec Ideal Cert.Pre_finite_inputs.S65536x256 .f32) (mu : FVec Ideal Cert.Pre_finite_inputs.S1024x1x256 .f32)
    (cov : FVec Ideal Cert.Pre_finite_inputs.S1024x256 .f32)
    (h : Cert.Pre_finite_inputs.fn (F := Ideal) x mu cov = fun _ => 1#1) :
    Cert.Lib.RealValued.AllReal x ∧ Cert.Lib.RealValued.AllReal mu ∧ Cert.Lib.RealValued.AllReal cov ∧ ∀ i, cov i ≠ 0 := by
  -- the one entry of the rank-0 result
  have h0 := congrFun h ValueIdx.ix0
  dsimp only [Cert.Pre_finite_inputs.fn, Cert.Pre_finite_inputs.fn_part1] at h0
  -- ((A ∧ B) ∧ C) ∧ D, each an `and` of `i1` words read at that entry
  obtain ⟨h123, h4⟩ := IntOp.andi_eq_one.1 h0
  obtain ⟨h12, h3⟩ := IntOp.andi_eq_one.1 h123
  obtain ⟨h1, h2⟩ := IntOp.andi_eq_one.1 h12
  exact ⟨Cert.Lib.FiniteTest.allReal_of_all x _ _ _ _ _ _ h1,
    Cert.Lib.FiniteTest.allReal_of_all mu _ _ _ _ _ _ h2,
    Cert.Lib.FiniteTest.allReal_of_all cov _ _ _ _ _ _ h3,
    Cert.Lib.NonzeroTest.ne_zero_of_all cov _ _ _ _ _ _ h4⟩

end Cert.Gauss

end
-- ==== Proof.lean ====
/-
  A diagonal Gaussian affinity, out[p, j] = exp(-1/2 · Σ_k (x[p,k] - mu[j,k])² / cov[j,k]), computed by a kernel over
  32 blocks of 2048 points against a plain reference, both through the expansion of the square with the inverse
  variance ic = 1 / cov.

  The precondition: every entry of x, mu and cov is finite and no variance is zero (the reference divides by cov).

  frame (three programs): every weakly fair execution terminates without a fault and leaves the arguments as
    launched — the kernel's two programs by their generated frame certificates, the reference by its generated run.
  preserves: the idealized kernel differs from the printed one by four removed round trips f32 → bf16 → f32 (the
    rounded parts of x and of x², once per half of the point block), each its rule's statement.
  algebraic: on the extended reals the kernel's result array is, index by index, exp(-1/2 · quad) with the four
    contractions x²·ic, (x² - x²)·ic, x·(-2·mu·ic), (x - x)·(-2·mu·ic) added left to right and then the centre's term
    Σ mu²·ic: each grid point writes the block of this function over its 2048 rows (the body's two stores are two
    tiles of one function of the block index; the parameter arrays staged whole are what the host operations before
    the call computed), and the blocks cover the array. The reference's result is exp(-1/2 · quad) with quad =
    (Σ x²·ic - 2·Σ x·(mu·ic)) + Σ mu²·ic. Under the precondition every entry is real and every ic is the real 1/cov:
    x - x = 0 and x² - x² = 0, so the two remainder contractions vanish, and moving the factor -2 out of a sum of
    reals is an identity of real numbers. (Without the precondition on cov the two arrangements differ: with ic = +∞
    at two features where x·mu has opposite signs the kernel's sum of ±∞ terms and the reference's scaled sum take
    different extended-real values.)
-/
import proofs.«118681_j65034394796366_2_alg».proof.Defs
import proofs.«118681_j65034394796366_2_alg».proof.Proof.Gen.Kernel
import proofs.«118681_j65034394796366_2_alg».proof.Proof.Gen.Kernel.Frame
import proofs.«118681_j65034394796366_2_alg».proof.Proof.Gen.KernelIdeal
import proofs.«118681_j65034394796366_2_alg».proof.Proof.Gen.KernelIdeal.Frame
import proofs.«118681_j65034394796366_2_alg».proof.Proof.Gen.KernelIdeal.Value
import proofs.«118681_j65034394796366_2_alg».proof.Proof.Gen.ReferenceIdeal
import proofs.«118681_j65034394796366_2_alg».proof.Proof.Gen.ReferenceIdeal.Run
import proofs.«118681_j65034394796366_2_alg».proof.Proof.Gen.ReferenceIdeal.Read
import proofs.«118681_j65034394796366_2_alg».proof.Proof.Gen.Pre_finite_inputs
import proofs.«118681_j65034394796366_2_alg».proof.Proof.GaussBlocks
import proofs.«118681_j65034394796366_2_alg».proof.Proof.GaussRef
import proofs.«118681_j65034394796366_2_alg».proof.Proof.GaussAlgebra
import proofs.«118681_j65034394796366_2_alg».proof.Proof.GaussPre
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The ledger's four entries: a change of format f32 → bf16 → f32 of a [1024, 256] array is the identity on the
    extended reals. -/
theorem preserves : Cert.preserves_Kernel_KernelIdeal :=
  ⟨IdealRules.truncf_extf.statement _ .f32 .bf16, IdealRules.truncf_extf.statement _ .f32 .bf16,
    IdealRules.truncf_extf.statement _ .f32 .bf16, IdealRules.truncf_extf.statement _ .f32 .bf16⟩

/-- Both programs end with the kernel's arrangement of exp(-1/2 · quad) of the arguments: the kernel's run states it,
    the reference's run ends at the reference's arrangement of the same arguments, and under the precondition the two
    arrangements are one function. -/
theorem algebraic : Cert.algebraic_KernelIdeal_ReferenceIdeal := by
  intro m ρ m' ρ' hpre hagree
  refine ⟨_, Cert.Gauss.Kernel.run m ρ, ?_⟩
  refine (θ_run Cert.ReferenceIdeal.defs _ _).mono (fun _ h c => ⟨(h c).1.trans ?_, (h c).2⟩)
    (Cert.ReferenceIdeal.Value.run (F := Ideal) m' ρ')
  obtain ⟨hx, hmu, hc, hc0⟩ := Cert.Gauss.reads_of_pre _ _ _ (hpre c)
  rw [Cert.ReferenceIdeal.Read.val_main_v18_eq, Cert.Gauss.ref_eq, (hagree c).1, (hagree c).2.1, (hagree c).2.2]
  exact (Cert.Gauss.kerOut_eq_refOut _ _ _ hx hmu hc hc0).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
